-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1x50257 : Shape := ⟨2, ![1, 50257]⟩
abbrev S3584x1024 : Shape := ⟨2, ![3584, 1024]⟩
abbrev S1x3584 : Shape := ⟨2, ![1, 3584]⟩

abbrev nBuf : Space → Nat
  | .hbm => 114
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x1024, .f32⟩
  | .hbm, ⟨47, _⟩ => ⟨S1x2048, .f32⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1024x3072, .f32⟩
  | .hbm, ⟨56, _⟩ => ⟨S1x3072, .f32⟩
  | .hbm, ⟨57, _⟩ => ⟨S1x3072, .f32⟩
  | .hbm, ⟨58, _⟩ => ⟨S1x3072, .f32⟩
  | .hbm, ⟨59, _⟩ => ⟨S1024x3072, .f32⟩
  | .hbm, ⟨60, _⟩ => ⟨S1x3072, .f32⟩
  | .hbm, ⟨61, _⟩ => ⟨S1x3072, .f32⟩
  | .hbm, ⟨62, _⟩ => ⟨S1x3072, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S_, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x50257, .f32⟩
  | .hbm, ⟨97, _⟩ => ⟨S1x50257, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S1, .f32⟩
  | .hbm, ⟨102, _⟩ => ⟨S1, .f32⟩
  | .hbm, ⟨103, _⟩ => ⟨S1x1, .f32⟩
  | .hbm, ⟨104, _⟩ => ⟨S1x50257, .f32⟩
  | .hbm, ⟨105, _⟩ => ⟨S1x50257, .f32⟩
  | .hbm, ⟨106, _⟩ => ⟨S1x50257, .f32⟩
  | .hbm, ⟨107, _⟩ => ⟨S_, .f32⟩
  | .hbm, ⟨108, _⟩ => ⟨S1, .f32⟩
  | .hbm, ⟨109, _⟩ => ⟨S1x1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x1x1024, .f32⟩
  | .local _ .vmem, ⟨0, _⟩ => ⟨S1x1024, .f32⟩
  | .local _ .vmem, ⟨1, _⟩ => ⟨S3584x1024, .f32⟩
  | .local _ .vmem, ⟨2, _⟩ => ⟨S3584x1024, .f32⟩
  | .local _ .vmem, ⟨3, _⟩ => ⟨S1x3584, .f32⟩
  | .local _ .vmem, ⟨4, _⟩ => ⟨S1x3584, .f32⟩
  | .local _ .vmem, ⟨5, _⟩ => ⟨S1x3584, .f32⟩
  | .local _ .vmem, ⟨6, _⟩ => ⟨S1x3584, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v72 : Ref sig .tc := ⟨.hbm, 112, rfl⟩
abbrev main_v73 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S3584x1024_S3584x1024_0_0 : ∀ a, (![0, 0] : Fin 2 → Nat) a + S3584x1024.size a ≤ S3584x1024.size a
  h_S3584x1024 : 0 < S3584x1024.numel
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S3584x1024_S1x3584_1_1_0_0_n_n_wf : DotDims.WF S1x1024 S3584x1024 S1x3584 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3584x1024.size a < S50257x1024.size a
  hwx0_1 : ∀ i : grid0.Coords, EltTy.bits .f32 = 32 ∨ (Rect.unit (s := S50257x1024) (fun a => cc0_transform_1 i a * S3584x1024.size a) (fun a => (Pipeline.Clip.of (cc0_transform_1 i a) (S3584x1024.size a) (S50257x1024.size a)).extent (S3584x1024.size a)) fun a => Pipeline.Clip.inb (Pipeline.Clip.ok_of (hstart0_1 i a))).WholeWords (EltTy.packing .f32)
  hwxs0_1 : ∀ i : grid0.Coords, EltTy.bits .f32 = 32 ∨ (Rect.unit (s := S3584x1024) (fun _ => 0) (fun a => (Pipeline.Clip.of (cc0_transform_1 i a) (S3584x1024.size a) (S50257x1024.size a)).extent (S3584x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x3584.size a < S1x50257.size a
  hwx0_2 : ∀ i : grid0.Coords, EltTy.bits .f32 = 32 ∨ (Rect.unit (s := S1x50257) (fun a => cc0_transform_2 i a * S1x3584.size a) (fun a => (Pipeline.Clip.of (cc0_transform_2 i a) (S1x3584.size a) (S1x50257.size a)).extent (S1x3584.size a)) fun a => Pipeline.Clip.inb (Pipeline.Clip.ok_of (hstart0_2 i a))).WholeWords (EltTy.packing .f32)
  hwxs0_2 : ∀ i : grid0.Coords, EltTy.bits .f32 = 32 ∨ (Rect.unit (s := S1x3584) (fun _ => 0) (fun a => (Pipeline.Clip.of (cc0_transform_2 i a) (S1x3584.size a) (S1x50257.size a)).extent (S1x3584.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x3584.size a < S1x50257.size a
  hwx0_3 : ∀ i : grid0.Coords, EltTy.bits .f32 = 32 ∨ (Rect.unit (s := S1x50257) (fun a => cc0_transform_3 i a * S1x3584.size a) (fun a => (Pipeline.Clip.of (cc0_transform_3 i a) (S1x3584.size a) (S1x50257.size a)).extent (S1x3584.size a)) fun a => Pipeline.Clip.inb (Pipeline.Clip.ok_of (hstart0_3 i a))).WholeWords (EltTy.packing .f32)
  hwxs0_3 : ∀ i : grid0.Coords, EltTy.bits .f32 = 32 ∨ (Rect.unit (s := S1x3584) (fun _ => 0) (fun a => (Pipeline.Clip.of (cc0_transform_3 i a) (S1x3584.size a) (S1x50257.size a)).extent (S1x3584.size a)) fun a => (Nat.zero_add _).trans_le (Pipeline.Clip.extent_le (Pipeline.Clip.ok_of (hstart0_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S3584x1024_S1x3584_1_1_0_0_n_n : DotDims S1x1024 S3584x1024 S1x3584 where
  lhsContracting := [1]
  rhsContracting := [1]
  lhsNonContracting := [0]
  rhsNonContracting := [0]
  lhsBatch := []
  rhsBatch := []
  wf := dot_S1x1024_S3584x1024_S1x3584_1_1_0_0_n_n_wf

abbrev win0_0 : Pipeline.Window sig grid0 :=
  Pipeline.Window.ofSpec (Memref.whole main_v69) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S3584x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v70) S1x3584.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v71) S1x3584.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 118
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x1024, .f32⟩
  | .hbm, ⟨47, _⟩ => ⟨S1x2048, .f32⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1024x3072, .f32⟩
  | .hbm, ⟨56, _⟩ => ⟨S1x3072, .f32⟩
  | .hbm, ⟨57, _⟩ => ⟨S1x3072, .f32⟩
  | .hbm, ⟨58, _⟩ => ⟨S1x3072, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1024x50257, .f32⟩
  | .hbm, ⟨99, _⟩ => ⟨S1x50257, .f32⟩
  | .hbm, ⟨100, _⟩ => ⟨S1x50257, .f32⟩
  | .hbm, ⟨101, _⟩ => ⟨S1x50257, .f32⟩
  | .hbm, ⟨102, _⟩ => ⟨S_, .f32⟩
  | .hbm, ⟨103, _⟩ => ⟨S1, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S1x1, .f32⟩
  | .hbm, ⟨108, _⟩ => ⟨S1x50257, .f32⟩
  | .hbm, ⟨109, _⟩ => ⟨S1x50257, .f32⟩
  | .hbm, ⟨110, _⟩ => ⟨S1x50257, .f32⟩
  | .hbm, ⟨111, _⟩ => ⟨S_, .f32⟩
  | .hbm, ⟨112, _⟩ => ⟨S1, .f32⟩
  | .hbm, ⟨113, _⟩ => ⟨S1x1, .f32⟩
  | .hbm, ⟨114, _⟩ => ⟨S1x1, .f32⟩
  | .hbm, ⟨115, _⟩ => ⟨S1x50257, .f32⟩
  | .hbm, ⟨116, _⟩ => ⟨S1x50257, .f32⟩
  | .hbm, ⟨117, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call1_cst : Ref sig .tc := ⟨.hbm, 102, rfl⟩
abbrev main_call1_v0 : Ref sig .tc := ⟨.hbm, 103, rfl⟩
abbrev main_call1_cst_0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_cst_1 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KBody.lean ====
/-
  The kernel body of the vocabulary projection, run once on whole staging buffers.

  The body reads the hidden row (1×1024), one block of 3584 rows of the output matrix (3584×1024) and the matching
  block of 3584 bias entries (1×3584), and stores into the result's staging buffer (1×3584) the row times the
  transposed block plus the bias: entry j of the stored row is the inner product of the hidden row with row j of the
  block, plus bias entry j. Here only the shape of that run is stated: the three input buffers are left as they
  were found, and the result buffer ends holding the body's one payload of what the three loads read.
-/
import proofs.«117048_j14027363189411_2_alg».proof.Proof.Gen.Kernel.Frame
import proofs.«117048_j14027363189411_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The body's accesses: each buffer whole, at offset zero -/

abbrev rHid : Rect S1x1024 := Rect.unit (s := S1x1024) ![0, 0] S1x1024.size inb_S1x1024_S1x1024_0_0
abbrev rMat : Rect S3584x1024 := Rect.unit (s := S3584x1024) ![0, 0] S3584x1024.size inb_S3584x1024_S3584x1024_0_0
abbrev rRow : Rect S1x3584 := Rect.unit (s := S1x3584) ![0, 0] S1x3584.size inb_S1x3584_S1x3584_0_0

/-- What the result's staging buffer holds after the body, from what the three input buffers hold: its one store,
    whole, of the payload of the three whole loads. -/
def outRow (x0 : Vec F S1x1024 .f32) (x1 : Vec F S3584x1024 .f32) (x2 : Vec F S1x3584 .f32) : Vec F S1x3584 .f32 :=
  View.canon [⟨rRow, k0_pay1 (View.ld x0 rHid) (View.ld x1 rMat) (View.ld x2 rRow)⟩]

/-- The one store covers the buffer. -/
theorem cover_row (p0 : Vec F S1x3584 .f32) (y : S1x3584.Idx) :
    ∃ pc ∈ ([⟨rRow, p0⟩] : List (View.Piece (Elt F) S1x3584 .f32)), y ∈ pc.1.set :=
  View.cover_of_tiled [⟨rRow, p0⟩] S1x3584.size (by rfl) y

set_option maxHeartbeats 1000000 in
/-- The body on whole staging memrefs, the inputs' at contents `x0`, `x1`, `x2` and the result's at anything, runs
    to the continuation holding the inputs' as they were and the result's at `outRow` of them. -/
theorem sound_kernel (c : Dev nD) (E : Set ℕ) (i : grid0.Coords)
    (arg1 : Memref sig .tc .vmem S1x1024 .f32) (harg1 : arg1.IsWhole)
    (arg2 : Memref sig .tc .vmem S3584x1024 .f32) (harg2 : arg2.IsWhole)
    (arg3 : Memref sig .tc .vmem S1x3584 .f32) (harg3 : arg3.IsWhole)
    (arg4 : Memref sig .tc .vmem S1x3584 .f32) (harg4 : arg4.IsWhole)
    (x0 : Vec F S1x1024 .f32) (x1 : Vec F S3584x1024 .f32) (x2 : Vec F S1x3584 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outRow x0 x1 x2)) -∗ K ⟨⟩))
      ⊢ wp frame (wpE (defs₀ (F := F)) Variants.none c none) E
          (cc0__logits_kernel i arg1 harg1 arg2 harg2 arg3 harg3 arg4 harg4) K := by
  simp only [cc0__logits_kernel_eq_skeleton]; unfold cc0__logits_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_row _)

end Cert.Kernel.Hand

end
-- ==== Proof.KFrame.lean ====
/-
  The frame of the vocabulary projection at any float instance: the program runs to the end, nothing faults, and
  the fourteen argument arrays end as they were launched.

  For this claim nothing the body computes matters, only that it gives back the four staging buffers it was handed.
  So the proof data name nothing: every window is forgotten, the body is handed each buffer at contents nothing
  states and returns it at contents nothing states. That is also all that can be said at the word-level instance
  for the last grid point, whose blocks of the output matrix, of the bias and of the result overhang their arrays
  by 3503 rows: the rows past the array's end hold words nothing names, and the matrix unit's result is not a
  function of the in-array rows alone there.

  What follows from the run: an argument no window stages bypasses the region and no host line after it writes it;
  the output matrix, staged by a window that is only read, is never written back.
-/
import proofs.«117048_j14027363189411_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that name nothing -/

/-- The arrays as the region finds them; what the body leaves in any staging buffer is not named. -/
def fdat (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Every window forgotten. -/
abbrev allFgt : Fin cfg0.W → Bool := fun _ => true

/-- What the body is called with at point `t`: the class invariant, nothing owed, each current staging buffer at
    some contents, -/
def fPre (c : Dev nD) (t : Fin cfg0.N) : sProp 𝕄 :=
  iprop((fdat m c).Φ t.castSucc ∗ (fdat m c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- and what it returns: the same. -/
def fPost (c : Dev nD) (t : Fin cfg0.N) : sProp 𝕄 :=
  iprop((fdat m c).Φ t.succ ∗ (fdat m c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

theorem sound_fbody (c : Dev nD) (t : Fin cfg0.N) :
    fPre m c t ⊢ wp frame (wpE (defs₀ (F := F)) Variants.none c none) Set.univ (bodyAt0 t) (fun _ => fPost m c t) := by
  unfold fPre fPost bodyAt0
  rw [show (fdat m c).Φ t.succ = (fdat m c).Φ t.castSucc from rfl,
    show (fdat m c).owesAt () t.succ = (fdat m c).owesAt () t.castSucc from rfl]
  iintro ⟨HΦ, Ho, ⟨%X0, H0⟩, ⟨%X1, H1⟩, ⟨%X2, H2⟩, ⟨%X3, H3⟩⟩
  iapply (sound_kernel c Set.univ (grid0.coords t) _ _ _ _ _ _ _ _ X0 X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The library's body obligation with every window forgotten. -/
theorem body_forget (c : Dev nD) :
    BodyObligationLoose (fdat (F := F) m c) (defs₀ (F := F)) Variants.none () Set.univ allFgt := fun t => by
  rw [bigSep_W0]
  exact sound_fbody m c t

/-! ## The buffers the lines after the region write -/

/-- The argument arrays. -/
def argRefs : List (Ref sig .tc) := [main_arg0, main_arg1, main_arg2, main_arg3, main_arg4, main_arg5, main_arg6, main_arg7, main_arg8, main_arg9, main_arg10, main_arg11, main_arg12, main_arg13]

/-- Every buffer that is no argument: a superset of what the lines after the region write. -/
def tailWrites : Finset (Ref sig .tc) := Finset.univ.filter fun b => b ∉ argRefs

theorem sfx_writes : ∀ ops ∈ ([hostOps1, hostOps1_1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      simp only [StableHlo.nullary_writes, StableHlo.unary_writes, StableHlo.binary_writes, Finset.mem_singleton] at hb
      obtain rfl := Proc.devRef_injective (τ := τ) _ hb
      exact Finset.mem_filter.mpr ⟨Finset.mem_univ _, by decide⟩
  · simp only [hostOps1_1, List.mem_cons, List.mem_nil_iff, or_false] at hop
    rcases hop with rfl
    simp only [StableHlo.unary_writes, Finset.mem_singleton] at hb
    obtain rfl := Proc.devRef_injective (τ := τ) _ hb
    exact Finset.mem_filter.mpr ⟨Finset.mem_univ _, by decide⟩

/-- An argument that no window stages is among the buffers the post speaks of. -/
theorem arg_mem (b : Ref sig .tc) (hb : b ∈ argRefs) (hs : b.isScoped = false) (ha : ∀ w, (spec0 w).arr.view.ref ≠ b) :
    b ∈ Pipeline.restRefs sig spec0 \ tailWrites :=
  Finset.mem_sdiff.mpr ⟨Pipeline.mem_restRefs_of b hs ha, fun h => (Finset.mem_filter.mp h).2 hb⟩

/-! ## The run and the frame -/

set_option backward.isDefEq.respectTransparency.types false in
/-- Every weakly fair execution of @main terminates; every array of the pipeline ends at contents it may hold after
    the write-backs, and every other unscoped buffer the later lines do not write as the region found it. -/
theorem run_forget : θ_run defs (onTc (τ := τ) (main (F := F))) (s₀ m ρ)
    (Pipeline.RDat.FramePostR cfg0 (fun c => (fdat m c).toRForget allFgt) tailWrites (V m)) :=
  Pipeline.RDat.θ_run_frame_around_T cfgs (0 : Fin 1) launch0 defs₀ Variants.none (fun c => (fdat m c).toRForget allFgt) tailWrites m ρ main
    (hbody := fun c => (body_forget m c).toRForget) (hshare := fun c => (fdat m c).share_full fun _ => rfl)
    (howed := fun _ _ => rfl) (V₀ := V0 m) (opss := [hostOps1, hostOps1_1]) (hsub := sfx_sub) (hfresh := sfx_fresh) (hkeep := sfx_keeps)
    (hT := sfx_writes) (hmain := hmain m Variants.none) (hA := fun _ _ => rfl) (hΦ := fun _ _ => rfl)

/-- The frame claim's post, at any float instance. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (arg_mem main_arg0 (by decide) (by decide) (by decide))).trans (V_main_arg0 m c),
      ((h c).2 main_arg1 (arg_mem main_arg1 (by decide) (by decide) (by decide))).trans (V_main_arg1 m c),
      ((h c).2 main_arg2 (arg_mem main_arg2 (by decide) (by decide) (by decide))).trans (V_main_arg2 m c),
      ((h c).2 main_arg3 (arg_mem main_arg3 (by decide) (by decide) (by decide))).trans (V_main_arg3 m c),
      ((h c).2 main_arg4 (arg_mem main_arg4 (by decide) (by decide) (by decide))).trans (V_main_arg4 m c),
      ((h c).2 main_arg5 (arg_mem main_arg5 (by decide) (by decide) (by decide))).trans (V_main_arg5 m c),
      ((h c).2 main_arg6 (arg_mem main_arg6 (by decide) (by decide) (by decide))).trans (V_main_arg6 m c),
      ((h c).2 main_arg7 (arg_mem main_arg7 (by decide) (by decide) (by decide))).trans (V_main_arg7 m c),
      ((h c).2 main_arg8 (arg_mem main_arg8 (by decide) (by decide) (by decide))).trans (V_main_arg8 m c),
      ((h c).2 main_arg9 (arg_mem main_arg9 (by decide) (by decide) (by decide))).trans (V_main_arg9 m c),
      ((h c).2 main_arg10 (arg_mem main_arg10 (by decide) (by decide) (by decide))).trans (V_main_arg10 m c),
      ((h c).2 main_arg11 (arg_mem main_arg11 (by decide) (by decide) (by decide))).trans (V_main_arg11 m c),
      (Eq.mp (congrFun (Pipeline.RDat.ArrAt_in ((fdat m c).toRForget allFgt) 1 rfl cfg0.N) _) ((h c).1 1)).trans (V_main_arg12 m c),
      ((h c).2 main_arg13 (arg_mem main_arg13 (by decide) (by decide) (by decide))).trans (V_main_arg13 m c)⟩) (run_forget m ρ)

end Cert.Kernel.Hand

end
-- ==== Proof.KIBody.lean ====
/-
  The kernel body of the vocabulary projection, run once on whole staging buffers.

  The body reads the hidden row (1×1024), one block of 3584 rows of the output matrix (3584×1024) and the matching
  block of 3584 bias entries (1×3584), and stores into the result's staging buffer (1×3584) the row times the
  transposed block plus the bias: entry j of the stored row is the inner product of the hidden row with row j of the
  block, plus bias entry j. Here only the shape of that run is stated: the three input buffers are left as they
  were found, and the result buffer ends holding the body's one payload of what the three loads read.
-/
import proofs.«117048_j14027363189411_2_alg».proof.Proof.Gen.KernelIdeal.Frame
import proofs.«117048_j14027363189411_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The body's accesses: each buffer whole, at offset zero -/

abbrev rHid : Rect S1x1024 := Rect.unit (s := S1x1024) ![0, 0] S1x1024.size inb_S1x1024_S1x1024_0_0
abbrev rMat : Rect S3584x1024 := Rect.unit (s := S3584x1024) ![0, 0] S3584x1024.size inb_S3584x1024_S3584x1024_0_0
abbrev rRow : Rect S1x3584 := Rect.unit (s := S1x3584) ![0, 0] S1x3584.size inb_S1x3584_S1x3584_0_0

/-- What the result's staging buffer holds after the body, from what the three input buffers hold: its one store,
    whole, of the payload of the three whole loads. -/
def outRow (x0 : Vec F S1x1024 .f32) (x1 : Vec F S3584x1024 .f32) (x2 : Vec F S1x3584 .f32) : Vec F S1x3584 .f32 :=
  View.canon [⟨rRow, k0_pay1 (View.ld x0 rHid) (View.ld x1 rMat) (View.ld x2 rRow)⟩]

/-- The one store covers the buffer. -/
theorem cover_row (p0 : Vec F S1x3584 .f32) (y : S1x3584.Idx) :
    ∃ pc ∈ ([⟨rRow, p0⟩] : List (View.Piece (Elt F) S1x3584 .f32)), y ∈ pc.1.set :=
  View.cover_of_tiled [⟨rRow, p0⟩] S1x3584.size (by rfl) y

set_option maxHeartbeats 1000000 in
/-- The body on whole staging memrefs, the inputs' at contents `x0`, `x1`, `x2` and the result's at anything, runs
    to the continuation holding the inputs' as they were and the result's at `outRow` of them. -/
theorem sound_kernel (c : Dev nD) (E : Set ℕ) (i : grid0.Coords)
    (arg1 : Memref sig .tc .vmem S1x1024 .f32) (harg1 : arg1.IsWhole)
    (arg2 : Memref sig .tc .vmem S3584x1024 .f32) (harg2 : arg2.IsWhole)
    (arg3 : Memref sig .tc .vmem S1x3584 .f32) (harg3 : arg3.IsWhole)
    (arg4 : Memref sig .tc .vmem S1x3584 .f32) (harg4 : arg4.IsWhole)
    (x0 : Vec F S1x1024 .f32) (x1 : Vec F S3584x1024 .f32) (x2 : Vec F S1x3584 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outRow x0 x1 x2)) -∗ K ⟨⟩))
      ⊢ wp frame (wpE (defs₀ (F := F)) Variants.none c none) E
          (cc0__logits_kernel i arg1 harg1 arg2 harg2 arg3 harg3 arg4 harg4) K := by
  simp only [cc0__logits_kernel_eq_skeleton]; unfold cc0__logits_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_row _)

end Cert.KernelIdeal.Hand

end
-- ==== Proof.KIFrame.lean ====
/-
  The frame of the vocabulary projection at any float instance: the program runs to the end, nothing faults, and
  the fourteen argument arrays end as they were launched.

  For this claim nothing the body computes matters, only that it gives back the four staging buffers it was handed.
  So the proof data name nothing: every window is forgotten, the body is handed each buffer at contents nothing
  states and returns it at contents nothing states. That is also all that can be said at the word-level instance
  for the last grid point, whose blocks of the output matrix, of the bias and of the result overhang their arrays
  by 3503 rows: the rows past the array's end hold words nothing names, and the matrix unit's result is not a
  function of the in-array rows alone there.

  What follows from the run: an argument no window stages bypasses the region and no host line after it writes it;
  the output matrix, staged by a window that is only read, is never written back.
-/
import proofs.«117048_j14027363189411_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that name nothing -/

/-- The arrays as the region finds them; what the body leaves in any staging buffer is not named. -/
def fdat (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Every window forgotten. -/
abbrev allFgt : Fin cfg0.W → Bool := fun _ => true

/-- What the body is called with at point `t`: the class invariant, nothing owed, each current staging buffer at
    some contents, -/
def fPre (c : Dev nD) (t : Fin cfg0.N) : sProp 𝕄 :=
  iprop((fdat m c).Φ t.castSucc ∗ (fdat m c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- and what it returns: the same. -/
def fPost (c : Dev nD) (t : Fin cfg0.N) : sProp 𝕄 :=
  iprop((fdat m c).Φ t.succ ∗ (fdat m c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

theorem sound_fbody (c : Dev nD) (t : Fin cfg0.N) :
    fPre m c t ⊢ wp frame (wpE (defs₀ (F := F)) Variants.none c none) Set.univ (bodyAt0 t) (fun _ => fPost m c t) := by
  unfold fPre fPost bodyAt0
  rw [show (fdat m c).Φ t.succ = (fdat m c).Φ t.castSucc from rfl,
    show (fdat m c).owesAt () t.succ = (fdat m c).owesAt () t.castSucc from rfl]
  iintro ⟨HΦ, Ho, ⟨%X0, H0⟩, ⟨%X1, H1⟩, ⟨%X2, H2⟩, ⟨%X3, H3⟩⟩
  iapply (sound_kernel c Set.univ (grid0.coords t) _ _ _ _ _ _ _ _ X0 X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The library's body obligation with every window forgotten. -/
theorem body_forget (c : Dev nD) :
    BodyObligationLoose (fdat (F := F) m c) (defs₀ (F := F)) Variants.none () Set.univ allFgt := fun t => by
  rw [bigSep_W0]
  exact sound_fbody m c t

/-! ## The buffers the lines after the region write -/

/-- The argument arrays. -/
def argRefs : List (Ref sig .tc) := [main_arg0, main_arg1, main_arg2, main_arg3, main_arg4, main_arg5, main_arg6, main_arg7, main_arg8, main_arg9, main_arg10, main_arg11, main_arg12, main_arg13]

/-- Every buffer that is no argument: a superset of what the lines after the region write. -/
def tailWrites : Finset (Ref sig .tc) := Finset.univ.filter fun b => b ∉ argRefs

theorem sfx_writes : ∀ ops ∈ ([hostOps1, hostOps1_1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      simp only [StableHlo.nullary_writes, StableHlo.unary_writes, StableHlo.binary_writes, Finset.mem_singleton] at hb
      obtain rfl := Proc.devRef_injective (τ := τ) _ hb
      exact Finset.mem_filter.mpr ⟨Finset.mem_univ _, by decide⟩
  · simp only [hostOps1_1, List.mem_cons, List.mem_nil_iff, or_false] at hop
    rcases hop with rfl
    simp only [StableHlo.unary_writes, Finset.mem_singleton] at hb
    obtain rfl := Proc.devRef_injective (τ := τ) _ hb
    exact Finset.mem_filter.mpr ⟨Finset.mem_univ _, by decide⟩

/-- An argument that no window stages is among the buffers the post speaks of. -/
theorem arg_mem (b : Ref sig .tc) (hb : b ∈ argRefs) (hs : b.isScoped = false) (ha : ∀ w, (spec0 w).arr.view.ref ≠ b) :
    b ∈ Pipeline.restRefs sig spec0 \ tailWrites :=
  Finset.mem_sdiff.mpr ⟨Pipeline.mem_restRefs_of b hs ha, fun h => (Finset.mem_filter.mp h).2 hb⟩

/-! ## The run and the frame -/

set_option backward.isDefEq.respectTransparency.types false in
/-- Every weakly fair execution of @main terminates; every array of the pipeline ends at contents it may hold after
    the write-backs, and every other unscoped buffer the later lines do not write as the region found it. -/
theorem run_forget : θ_run defs (onTc (τ := τ) (main (F := F))) (s₀ m ρ)
    (Pipeline.RDat.FramePostR cfg0 (fun c => (fdat m c).toRForget allFgt) tailWrites (V m)) :=
  Pipeline.RDat.θ_run_frame_around_T cfgs (0 : Fin 1) launch0 defs₀ Variants.none (fun c => (fdat m c).toRForget allFgt) tailWrites m ρ main
    (hbody := fun c => (body_forget m c).toRForget) (hshare := fun c => (fdat m c).share_full fun _ => rfl)
    (howed := fun _ _ => rfl) (V₀ := V0 m) (opss := [hostOps1, hostOps1_1]) (hsub := sfx_sub) (hfresh := sfx_fresh) (hkeep := sfx_keeps)
    (hT := sfx_writes) (hmain := hmain m Variants.none) (hA := fun _ _ => rfl) (hΦ := fun _ _ => rfl)

/-- The frame claim's post, at any float instance. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (arg_mem main_arg0 (by decide) (by decide) (by decide))).trans (V_main_arg0 m c),
      ((h c).2 main_arg1 (arg_mem main_arg1 (by decide) (by decide) (by decide))).trans (V_main_arg1 m c),
      ((h c).2 main_arg2 (arg_mem main_arg2 (by decide) (by decide) (by decide))).trans (V_main_arg2 m c),
      ((h c).2 main_arg3 (arg_mem main_arg3 (by decide) (by decide) (by decide))).trans (V_main_arg3 m c),
      ((h c).2 main_arg4 (arg_mem main_arg4 (by decide) (by decide) (by decide))).trans (V_main_arg4 m c),
      ((h c).2 main_arg5 (arg_mem main_arg5 (by decide) (by decide) (by decide))).trans (V_main_arg5 m c),
      ((h c).2 main_arg6 (arg_mem main_arg6 (by decide) (by decide) (by decide))).trans (V_main_arg6 m c),
      ((h c).2 main_arg7 (arg_mem main_arg7 (by decide) (by decide) (by decide))).trans (V_main_arg7 m c),
      ((h c).2 main_arg8 (arg_mem main_arg8 (by decide) (by decide) (by decide))).trans (V_main_arg8 m c),
      ((h c).2 main_arg9 (arg_mem main_arg9 (by decide) (by decide) (by decide))).trans (V_main_arg9 m c),
      ((h c).2 main_arg10 (arg_mem main_arg10 (by decide) (by decide) (by decide))).trans (V_main_arg10 m c),
      ((h c).2 main_arg11 (arg_mem main_arg11 (by decide) (by decide) (by decide))).trans (V_main_arg11 m c),
      (Eq.mp (congrFun (Pipeline.RDat.ArrAt_in ((fdat m c).toRForget allFgt) 1 rfl cfg0.N) _) ((h c).1 1)).trans (V_main_arg12 m c),
      ((h c).2 main_arg13 (arg_mem main_arg13 (by decide) (by decide) (by decide))).trans (V_main_arg13 m c)⟩) (run_forget m ρ)

end Cert.KernelIdeal.Hand

end
-- ==== Proof.LibTransposedDot.lean ====
/-
  A two-dimensional matrix product with the right operand transposed — `M × K` by `N × K`, both operands contracted
  on their LAST axis, no batch axis (`DotDims.transposedRhs M K N`, the dimension numbers `<[1], [1], [0], [0]>`) — read
  at an output index over the extended reals: a kernel's `tpu.matmul` into a zero accumulator and the host's
  `dot_general` are the finite sum `Σ_{k < K} lhs (r, k) · rhs (c, k)`: the inner product of row `r` of the left
  operand with row `c` of the right one. In particular entry `(r, c)` reads the right operand at its row `c` only.
  A printed record `dot_S…_1_1_0_0_n_n` of these dimension numbers IS `DotDims.transposedRhs M K N` (`rfl`).
-/
import Idealize.ShloMosaic.PureOps.Ideal.Laws
import Idealize.ShloMosaic.Lib.ValueIdx

namespace Idealize.ShloMosaic.TransposedDot

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `j` and contraction position `k` is `(j₀, k)`. -/
theorem lhsIdx_eq (j : (⟨2, ![M, N]⟩ : Shape).Idx) (k : Fin K) :
    (DotDims.transposedRhs M K N).lhsIdx j ((contrEquiv1 (DotDims.transposedRhs M K N) K contr_rank contr_size).symm k)
      = ix2 ⟨(j 0).val, idx2_lt0 j⟩ k := by
  have hk := contrEquiv1_symm_val (DotDims.transposedRhs M K N) K contr_rank contr_size k
  funext a
  apply Fin.ext
  match a with
  | ⟨0, _⟩ => exact lhsIdx_val0 j _
  | ⟨1, _⟩ => exact (lhsIdx_val1 j _).trans hk

/-- The right operand's index there is `(j₁, k)`. -/
theorem rhsIdx_eq (j : (⟨2, ![M, N]⟩ : Shape).Idx) (k : Fin K) :
    (DotDims.transposedRhs M K N).rhsIdx j ((contrEquiv1 (DotDims.transposedRhs M K N) K contr_rank contr_size).symm k)
      = ix2 ⟨(j 1).val, idx2_lt1 j⟩ k := by
  have hk := contrEquiv1_symm_val (DotDims.transposedRhs M K N) K contr_rank contr_size k
  funext a
  apply Fin.ext
  match a with
  | ⟨0, _⟩ => exact rhsIdx_val0 j _
  | ⟨1, _⟩ => exact (rhsIdx_val1 j _).trans hk

/-- A kernel's product into the zero accumulator, at an output index: the inner product of a left row and a right row. -/
theorem matmul_apply {φ₁ φ₂ : FTy} (prec : Option ContractPrecision) (lhs : FVec Ideal ⟨2, ![M, K]⟩ φ₁)
    (rhs : FVec Ideal ⟨2, ![N, K]⟩ φ₂) (j : (⟨2, ![M, N]⟩ : Shape).Idx) :
    FloatOps.matmul (DotDims.transposedRhs M K N) prec lhs rhs (constant ⟨2, ![M, N]⟩ .f32 0x00000000#32) j
      = ∑ k : Fin K, lhs (ix2 ⟨(j 0).val, idx2_lt0 j⟩ k) * rhs (ix2 ⟨(j 1).val, idx2_lt1 j⟩ k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

/-- The host's `dot_general` with these dimension numbers at an output index: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (j : (⟨2, ![M, N]⟩ : Shape).Idx) :
    FloatOps.dotGeneral (DotDims.transposedRhs M K N) prec sched lhs rhs j
      = ∑ k : Fin K, lhs (ix2 ⟨(j 0).val, idx2_lt0 j⟩ k) * rhs (ix2 ⟨(j 1).val, idx2_lt1 j⟩ k) := by
  rw [Ideal.dotGeneral_apply,
    ← Equiv.sum_comp (contrEquiv1 (DotDims.transposedRhs M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) :=
  matmul_apply prec lhs rhs (ix2 r c)

end Idealize.ShloMosaic.TransposedDot
-- ==== Proof.KIPayload.lean ====
/-
  What the kernel body computes, entry by entry, over the extended reals.

  At the ideal instance a change of float format is the identity and the matrix unit's product into a zero
  accumulator is the exact finite sum. The body's one payload is therefore, at entry (0, c) of the 1×3584 result row,
  the inner product of the hidden row with row c of the 3584×1024 block, plus entry (0, c) of the bias block:
      Σ_{k < 1024} h(0, k) · W(c, k) + b(0, c).
  Entry c reads the block's row c and the bias entry c only — rows and entries past the array's end at the last grid
  point never reach an entry inside the array.

  `logits` is the same formula over the whole arrays: entry (0, j) of the 1×50257 logits row.
-/
import proofs.«117048_j14027363189411_2_alg».proof.Proof.Gen.KernelIdeal.Skeleton
import proofs.«117048_j14027363189411_2_alg».proof.Proof.LibTransposedDot
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- The printed dimension numbers of the body's product are the transposed-right-operand ones: 1×1024 by 3584×1024. -/
theorem dot_eq : dot_S1x1024_S3584x1024_S1x3584_1_1_0_0_n_n = DotDims.transposedRhs 1 1024 3584 := rfl

/-- The logits row over the whole arrays: entry (0, j) is the hidden row's inner product with row j of the output
    matrix, plus bias entry j. -/
def logits (h : Vec Ideal S1x1024 .f32) (W : Vec Ideal S50257x1024 .f32) (b : Vec Ideal S1x50257 .f32) :
    Vec Ideal S1x50257 .f32 :=
  fun i => (∑ k : Fin 1024, h (ix2 0 k) * W (ix2 ⟨(i 1).val, idx2_lt1 i⟩ k)) + b i

/-- The body's payload at entry (r, c). -/
theorem pay_apply (v0 : Vec Ideal S1x1024 .f32) (v3 : Vec Ideal S3584x1024 .f32) (v6 : Vec Ideal S1x3584 .f32)
    (r : Fin 1) (c : Fin 3584) :
    k0_pay1 (F := Ideal) v0 v3 v6 (ix2 r c) = (∑ k : Fin 1024, v0 (ix2 r k) * v3 (ix2 c k)) + v6 (ix2 r c) := by
  have h := TransposedDot.matmul_apply_ix2 (M := 1) (K := 1024) (N := 3584) (φ₁ := .bf16) (φ₂ := .bf16) none v0 v3 r c
  unfold k0_pay1
  simp only [shapeCast_self]
  exact congrArg (· + v6 (ix2 r c)) h

end Cert.KernelIdeal.Hand

end
-- ==== Proof.KIValue.lean ====
/-
  The idealized kernel's run, with the result array named.

  Proof data over the extended reals. After the body at grid point t the hidden row's buffer holds the row; the
  buffers of the output matrix's block and of the bias block hold their blocks on the rows inside the arrays; and the
  result's buffer holds, on the entries inside the array, block t of the logits row
      logits(0, j) = Σ_k h(0, k) · W(j, k) + b(0, j).
  At the last point the three blocks overhang their arrays by 3503 rows: there the buffers hold contents nothing
  names, and the body obligation is stated on the part inside the array only. That suffices because entry c of the
  body's row reads row c of the matrix block and entry c of the bias block, nothing else.

  The fifteen write-backs cover the 50257 entries (point t writes entries 3584·t … 3584·t + 3583, the last one
  50176 … 50256), so the result array ends holding the logits row.
-/
import proofs.«117048_j14027363189411_2_alg».proof.Proof.KIBody
import proofs.«117048_j14027363189411_2_alg».proof.Proof.KIPayload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

theorem hz : (![0, 0] : Fin 2 → Nat) = fun _ => 0 := funext fun a => by fin_cases a <;> rfl

/-- The result buffer after the body is the body's payload of the three buffers' contents. -/
theorem outRow_eq (x0 : Vec Ideal S1x1024 .f32) (x1 : Vec Ideal S3584x1024 .f32) (x2 : Vec Ideal S1x3584 .f32) :
    outRow (F := Ideal) x0 x1 x2 = k0_pay1 x0 x1 x2 := by
  unfold outRow
  rw [View.canon_unit_zero hz]
  simp only [View.ld_unit_zero (S := S1x1024) hz, View.ld_unit_zero (S := S3584x1024) hz, View.ld_unit_zero (S := S1x3584) hz]

/-- A filled block read at an index of its moved part is the filling. -/
theorem fill_at {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill; rw [dif_pos ((w.moved_iff i j).mpr h)]

/-- The printed index maps and cuts, decided over the fifteen points: the hidden row's block is always block 0; the
    matrix's row block, the bias's column block and the result's column block move together and are cut alike; the
    result's block t starts at entry 3584·t and ends inside the array. -/
theorem grid_facts : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0
    ∧ win0_1.xsize (grid0.coords t) (0 : Fin 2) = win0_3.xsize (grid0.coords t) (1 : Fin 2)
    ∧ win0_1.xsize (grid0.coords t) (1 : Fin 2) = 1024
    ∧ win0_2.xsize (grid0.coords t) (0 : Fin 2) = 1
    ∧ win0_2.xsize (grid0.coords t) (1 : Fin 2) = win0_3.xsize (grid0.coords t) (1 : Fin 2)
    ∧ win0_3.xsize (grid0.coords t) (0 : Fin 2) = 1
    ∧ win0_3.xsize (grid0.coords t) (1 : Fin 2) ≤ 3584
    ∧ win0_3.index t (1 : Fin 2) = t.val
    ∧ win0_3.index t (1 : Fin 2) * 3584 + win0_3.xsize (grid0.coords t) (1 : Fin 2) = min (t.val * 3584 + 3584) 50257 :=
  (by decide +kernel : ∀ t : Fin grid0.N, _)

/-- THE BODY'S ROW ON THE ENTRIES INSIDE THE ARRAY: with the hidden row's buffer at block `t` of `h` and the matrix
    block's and the bias block's buffers at blocks `t` of `W` and `b` on their moved parts — whatever fills them past
    their arrays' ends (`d1`, `d2`) — the body's row cut to the array is block `t` of the logits row of `h`, `W`, `b`. -/
theorem cut_out_gen (t : Fin cfg0.N) (d1 : S3584x1024.Idx → EReal) (d2 : S1x3584.Idx → EReal)
    (h : Vec Ideal S1x1024 .f32) (W : Vec Ideal S50257x1024 .f32) (b : Vec Ideal S1x50257 .f32) :
    win0_3.cut (grid0.coords t) (outRow (F := Ideal) ((win0_0.blk t).view.read (Elt Ideal) h)
        (win0_1.fill (grid0.coords t) d1 ((win0_1.blk t).view.read (Elt Ideal) W))
        (win0_2.fill (grid0.coords t) d2 ((win0_2.blk t).view.read (Elt Ideal) b)))
      = (win0_3.blk t).view.read (Elt Ideal) (logits h W b) := by
  obtain ⟨i00, i01, i10, i11, i20, i21, i30, x10, x11, x20, x21, x30, x31, -, -⟩ := grid_facts t
  funext y
  have hy0 : (y 0).val < win0_3.xsize (grid0.coords t) (0 : Fin 2) := (y 0).isLt
  have hy1 : (y 1).val < win0_3.xsize (grid0.coords t) (1 : Fin 2) := (y 1).isLt
  have hr : (y 0).val < 1 := by omega
  have hc : (y 1).val < 3584 := by omega
  have hidx : win0_3.xinj (grid0.coords t) y = ix2 (⟨(y 0).val, hr⟩ : Fin 1) (⟨(y 1).val, hc⟩ : Fin 3584) := by
    funext a; apply Fin.ext
    match a with
    | ⟨0, _⟩ => rfl
    | ⟨1, _⟩ => rfl
  show outRow (F := Ideal) _ _ _ (win0_3.xinj (grid0.coords t) y) = _
  rw [outRow_eq, hidx, pay_apply, View.read_apply]
  unfold logits
  have hr0 : (⟨(y 0).val, hr⟩ : Fin 1) = 0 := Fin.ext (by show (y 0).val = 0; omega)
  rw [hr0]
  refine congrArg₂ (· + ·) (Finset.sum_congr rfl fun k _ => congrArg₂ (· * ·) ?_ ?_) ?_
  · rw [View.read_apply]
    refine congrArg h (funext fun a => Fin.ext ?_)
    match a with
    | ⟨0, _⟩ => show win0_0.index t (0 : Fin 2) * 1 + 1 * 0 = 0; omega
    | ⟨1, _⟩ => show win0_0.index t (1 : Fin 2) * 1024 + 1 * k.val = k.val; omega
  · rw [fill_at win0_1 (grid0.coords t) d1 _ (ix2 (⟨(y 1).val, hc⟩ : Fin 3584) k) (fun a => by
      match a with
      | ⟨0, _⟩ => show (y 1).val < win0_1.xsize (grid0.coords t) (0 : Fin 2); omega
      | ⟨1, _⟩ => show k.val < win0_1.xsize (grid0.coords t) (1 : Fin 2); have := k.isLt; omega), View.read_apply]
    refine congrArg W (funext fun a => Fin.ext ?_)
    match a with
    | ⟨0, _⟩ =>
      show win0_1.index t (0 : Fin 2) * 3584 + 1 * (y 1).val = win0_3.index t (1 : Fin 2) * 3584 + 1 * (y 1).val
      omega
    | ⟨1, _⟩ =>
      show win0_1.index t (1 : Fin 2) * 1024 + 1 * k.val = k.val
      omega
  · rw [fill_at win0_2 (grid0.coords t) d2 _ (ix2 (0 : Fin 1) (⟨(y 1).val, hc⟩ : Fin 3584)) (fun a => by
      match a with
      | ⟨0, _⟩ => show 0 < win0_2.xsize (grid0.coords t) (0 : Fin 2); omega
      | ⟨1, _⟩ => show (y 1).val < win0_2.xsize (grid0.coords t) (1 : Fin 2); omega), View.read_apply]
    refine congrArg b (funext fun a => Fin.ext ?_)
    match a with
    | ⟨0, _⟩ =>
      show win0_2.index t (0 : Fin 2) * 1 + 1 * 0 = win0_3.index t (0 : Fin 2) * 1 + 1 * (y 0).val
      omega
    | ⟨1, _⟩ =>
      show win0_2.index t (1 : Fin 2) * 3584 + 1 * (y 1).val = win0_3.index t (1 : Fin 2) * 3584 + 1 * (y 1).val
      omega

/-! ## The proof data -/

/-- The logits row of the arrays as the region finds them: the hidden row the host lines computed, the output matrix
    as launched, the bias laid out as a row. -/
def logitsArr (c : Dev nD) : Vec Ideal S1x50257 .f32 :=
  logits (V m c main_v69) (V m c main_arg12) (V m c main_v70)

/-- The proof data on core `c`: the arrays as the region finds them; after the body the hidden row's buffer at the
    row, the two clipped inputs' at their blocks, the result's at block `t` of the logits row — each clipped window's
    filled out past the array's end with a word nothing reads. -/
def vdat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (logitsArr m c))
  Φ _ := Pipeline.ΦA spec0 c
  q _ := fullShare
  owed _ := 0

theorem A_eq (c : Dev nD) (w : Fin cfg0.W) : (vdat m c).A w = V m c (Pipeline.arrRef spec0 w) := by
  dsimp only [vdat]

theorem after0 (c : Dev nD) (t : Fin cfg0.N) : (vdat m c).after 0 t = iblk m c 0 t := by dsimp only [vdat]
theorem after1 (c : Dev nD) (t : Fin cfg0.N) :
    (vdat m c).after 1 t = win0_1.fill (grid0.coords t) (fun _ => (0 : EReal)) (iblk m c 1 t) := by dsimp only [vdat]
theorem after2 (c : Dev nD) (t : Fin cfg0.N) :
    (vdat m c).after 2 t = win0_2.fill (grid0.coords t) (fun _ => (0 : EReal)) (iblk m c 2 t) := by dsimp only [vdat]
theorem after3 (c : Dev nD) (t : Fin cfg0.N) :
    (vdat m c).after 3 t = win0_3.fill (grid0.coords t) (fun _ => (0 : EReal)) ((win0_3.blk t).view.read (Elt Ideal) (logitsArr m c)) := by
  dsimp only [vdat]

/-- What the body finds: the hidden row's buffer at the row, fetched at this point or kept from the first; -/
theorem before0 (c : Dev nD) (t : Fin cfg0.N) (d) : (vdat m c).before 0 t d = iblk m c 0 t :=
  before0_0_of m (vdat m c) (A_eq m c 0) (after0 m c) t d
/-- the matrix block's and the bias block's buffers just fetched: the block where the fetch filled the buffer,
    `d` past the array's end. -/
theorem before1 (c : Dev nD) (t : Fin cfg0.N) (d) :
    (vdat m c).before 1 t d = win0_1.fill (grid0.coords t) d (iblk m c 1 t) := by
  unfold Dat.before; rw [if_pos (fetch0_1 t)]; rfl
theorem before2 (c : Dev nD) (t : Fin cfg0.N) (d) :
    (vdat m c).before 2 t d = win0_2.fill (grid0.coords t) d (iblk m c 2 t) := by
  unfold Dat.before; rw [if_pos (fetch0_2 t)]; rfl

/-- The body's row cut to the array, at the blocks the region reads. -/
theorem cut_out (c : Dev nD) (t : Fin cfg0.N) (d1 : S3584x1024.Idx → EReal) (d2 : S1x3584.Idx → EReal) :
    win0_3.cut (grid0.coords t) (outRow (F := Ideal) (iblk m c 0 t) (win0_1.fill (grid0.coords t) d1 (iblk m c 1 t))
        (win0_2.fill (grid0.coords t) d2 (iblk m c 2 t)))
      = (win0_3.blk t).view.read (Elt Ideal) (logitsArr m c) := by
  unfold iblk logitsArr
  exact cut_out_gen t d1 d2 (V m c main_v69) (V m c main_arg12) (V m c main_v70)

/-- What the body is called with at point `t`, the windows one by one, -/
def bodyPre (c : Dev nD) (t : Fin cfg0.N) : sProp 𝕄 :=
  iprop((vdat m c).Φ t.castSucc ∗ (vdat m c).owesAt () t.castSucc
    ∗ (∃ d, owns (c : Thread nD τ) (st0_0 t) fullShare ((vdat m c).before 0 t d))
    ∗ (∃ d, owns (c : Thread nD τ) (st0_1 t) fullShare ((vdat m c).before 1 t d))
    ∗ (∃ d, owns (c : Thread nD τ) (st0_2 t) fullShare ((vdat m c).before 2 t d))
    ∗ (∃ d, owns (c : Thread nD τ) (st0_3 t) fullShare ((vdat m c).before 3 t d)))

/-- and what it returns: the hidden row's buffer named whole, the three clipped windows' on their moved parts. -/
def bodyPost (c : Dev nD) (t : Fin cfg0.N) : sProp 𝕄 :=
  iprop((vdat m c).Φ t.succ ∗ (vdat m c).owesAt () t.succ
    ∗ owns (c : Thread nD τ) (st0_0 t) fullShare ((vdat m c).after 0 t)
    ∗ (∃ d, owns (c : Thread nD τ) (st0_1 t) fullShare (win0_1.fill (grid0.coords t) d (win0_1.cut (grid0.coords t) ((vdat m c).after 1 t))))
    ∗ (∃ d, owns (c : Thread nD τ) (st0_2 t) fullShare (win0_2.fill (grid0.coords t) d (win0_2.cut (grid0.coords t) ((vdat m c).after 2 t))))
    ∗ (∃ d, owns (c : Thread nD τ) (st0_3 t) fullShare (win0_3.fill (grid0.coords t) d (win0_3.cut (grid0.coords t) ((vdat m c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (vdat m c).Φ t.succ = (vdat m c).Φ t.castSucc from rfl,
    show (vdat m c).owesAt () t.succ = (vdat m c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2]
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after0]; iexact H0
  isplitl [H1]
  · iexists d1
    rw [after1, win0_1.cut_fill]; iexact H1
  isplitl [H2]
  · iexists d2
    rw [after2, win0_2.cut_fill]; iexact H2
  · iexists (outRow (F := Ideal) (iblk m c 0 t) (win0_1.fill (grid0.coords t) d1 (iblk m c 1 t)) (win0_2.fill (grid0.coords t) d2 (iblk m c 2 t)))
    rw [after3, win0_3.cut_fill, ← cut_out m c t d1 d2, win0_3.fill_cut]; iexact H3

/-! ## The body obligation -/

theorem body_obligation (c : Dev nD) :
    BodyObligationLoose (vdat m c) (defs₀ (F := Ideal)) Variants.none () Set.univ := fun t => by
  rw [bigSep_W0, bigSep_W0]
  exact sound_body m c t

/-! ## The run -/

set_option backward.isDefEq.respectTransparency.types false in
/-- Every weakly fair execution of @main terminates; every array of the pipeline ends at what the library computes from
    the proof data, every other unscoped buffer as the lines after the region leave it. -/
theorem run_main : θ_run defs (onTc (τ := τ) (main (F := Ideal))) (s₀ m ρ)
    (Pipeline.FramePost cfgs (fun _ => vdat m) 0 (Pipeline.afterTail₀ cfgs (fun _ => vdat m) 0 (V0 m) [hostOps1, hostOps1_1])) :=
  Pipeline.θ_run_frame_around cfgs (fun _ => vdat m) (0 : Fin 1) launch0 defs₀ Variants.none m ρ main
    (hbody := fun c => body_obligation m c) (hshare := fun c => (vdat m c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-! ## The result array after the run -/

/-- What point `t` writes back is block `t` of the logits row. -/
theorem flushed_eq (c : Dev nD) (t : Fin cfg0.N) :
    (vdat m c).flushed 3 t = ((cfg0.win 3).blk t).view.read (Elt Ideal) (logitsArr m c) := by
  show (cfg0.win 3).cut (grid0.coords t) ((vdat m c).after 3 t) = _
  rw [after3]
  exact win0_3.cut_fill _ _ _

/-- An entry of the result array is in point `t`'s block iff its column is among the block's columns inside the array. -/
theorem mem_blk3 (t : Fin cfg0.N) (i : S1x50257.Idx) :
    i ∈ ((cfg0.win 3).blk t).view.set ↔ ∀ a : Fin 2, win0_3.index t a * S1x3584.size a ≤ (i a).val
      ∧ (i a).val < win0_3.index t a * S1x3584.size a + win0_3.xsize (grid0.coords t) a := by
  show i ∈ ((View.whole main_v71).slice (win0_3.rect t)).set ↔ _
  rw [View.set_slice_whole, Rect.mem_set_unit]
  exact Iff.rfl

/-- The fifteen blocks cover the row: entry `j` is in the block of point `j / 3584`. -/
theorem covered (i : S1x50257.Idx) : ∃ t : Fin cfg0.N, (cfg0.win 3).flush t = true ∧ i ∈ ((cfg0.win 3).blk t).view.set := by
  have hi0 : (i 0).val < 1 := (i 0).isLt
  have hi1 : (i 1).val < 50257 := (i 1).isLt
  have hN : cfg0.N = 15 := N_0
  let t : Fin cfg0.N := ⟨(i 1).val / 3584, by rw [hN]; omega⟩
  obtain ⟨-, -, -, -, -, -, i30, -, -, -, -, x30, -, i31, hend⟩ := grid_facts t
  have ht : t.val = (i 1).val / 3584 := rfl
  refine ⟨t, flush0_3 t, ?_⟩
  rw [mem_blk3]
  intro a
  match a with
  | ⟨0, _⟩ =>
    show win0_3.index t (0 : Fin 2) * 1 ≤ (i 0).val ∧ (i 0).val < win0_3.index t (0 : Fin 2) * 1 + win0_3.xsize (grid0.coords t) (0 : Fin 2)
    omega
  | ⟨1, _⟩ =>
    show win0_3.index t (1 : Fin 2) * 3584 ≤ (i 1).val ∧ (i 1).val < win0_3.index t (1 : Fin 2) * 3584 + win0_3.xsize (grid0.coords t) (1 : Fin 2)
    omega

/-- THE RESULT ARRAY after the run: the logits row. -/
theorem final3 (c : Dev nD) : (vdat m c).arrAt 3 cfg0.N = logitsArr m c :=
  (vdat m c).arrAt_eq_of_cover 3 (logitsArr m c) (fun t _ => flushed_eq m c t) (covered)

end Cert.KernelIdeal.Hand

end
-- ==== Proof.RefRun.lean ====
/-
  The reference program's run.

  The reference is a straight line of 104 host operations (the two functions it calls, the rectifier and the
  log-softmax, stand in their calls' places). Every weakly fair execution terminates, and every buffer ends at the
  fold of the operations' results over the launch contents. No operation writes an argument, so the fourteen
  arguments end as launched.

  The line is cut after the operation that writes the new hidden row: the first 84 operations compute the attention
  weights and the hidden row from the arguments; the last 20 are the vocabulary projection (transpose, product, bias),
  the log-softmax, and the hidden row's return as a 1×1×1024 array.
-/
import proofs.«117048_j14027363189411_2_alg».proof.ReferenceIdeal
import proofs.«117048_j14027363189411_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations up to the new hidden row. -/
abbrev opsA : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_v6 main_v7 rfl shapeCasts_S1x1024_S1x1x1024,
    reshape main_v7 main_v8 rfl shapeCasts_S1x1x1024_S1x1024,
    reshape main_arg1 main_v9 rfl shapeCasts_S1x1x1024_S1x1024,
    binary main_v8 main_v9 main_v10 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v11 ((transpose S2048x512 [1, 0] · transposes_S512x2048_S2048x512_1_0) : (⟨S512x2048, .f32⟩ : BufTy).Contents (Elt F) → (⟨S2048x512, .f32⟩ : BufTy).Contents (Elt F)),
    binary main_v10 main_v11 main_v12 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v13 (broadcastInDim S1x512 ![1] bcast_S512_S1x512_1 : (⟨S512, .f32⟩ : BufTy).Contents (Elt F) → (⟨S1x512, .f32⟩ : BufTy).Contents (Elt F)),
    binary main_v12 main_v13 main_v14 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v14 main_cst main_v15 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v16 (broadcastInDim S1 ![] bcast_S_S1 : (⟨S_, .f32⟩ : BufTy).Contents (Elt F) → (⟨S1, .f32⟩ : BufTy).Contents (Elt F)),
    binary main_v16 main_v15 main_v17 (maximumf : (⟨S1, .f32⟩ : BufTy).Contents (Elt F) → (⟨S1, .f32⟩ : BufTy).Contents (Elt F) → (⟨S1, .f32⟩ : BufTy).Contents (Elt F)),
    unary main_v17 main_v18 (broadcastInDim S1x1 ![0] bcast_S1_S1x1_0 : (⟨S1, .f32⟩ : BufTy).Contents (Elt F) → (⟨S1x1, .f32⟩ : BufTy).Contents (Elt F)),
    unary main_v18 main_v19 (broadcastInDim S1x512 ![0, 1] bcast_S1x1_S1x512_0_1 : (⟨S1x1, .f32⟩ : BufTy).Contents (Elt F) → (⟨S1x512, .f32⟩ : BufTy).Contents (Elt F)),
    binary main_v14 main_v19 main_v20 (subf : (⟨S1x512, .f32⟩ : BufTy).Contents (Elt F) → (⟨S1x512, .f32⟩ : BufTy).Contents (Elt F) → (⟨S1x512, .f32⟩ : BufTy).Contents (Elt F)),
    unary main_v20 main_v21 (Host.exp : (⟨S1x512, .f32⟩ : BufTy).Contents (Elt F) → (⟨S1x512, .f32⟩ : BufTy).Contents (Elt F)),
    nullary main_cst_2 (constant S_ .f32 0x00000000#32),
    binary main_v21 main_cst_2 main_v22 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v22 main_v23 (broadcastInDim S1x1 ![0] bcast_S1_S1x1_0 : (⟨S1, .f32⟩ : BufTy).Contents (Elt F) → (⟨S1x1, .f32⟩ : BufTy).Contents (Elt F)),
    unary main_v23 main_v24 (broadcastInDim S1x512 ![0, 1] bcast_S1x1_S1x512_0_1 : (⟨S1x1, .f32⟩ : BufTy).Contents (Elt F) → (⟨S1x512, .f32⟩ : BufTy).Contents (Elt F)),
    binary main_v21 main_v24 main_v25 (Host.divf : (⟨S1x512, .f32⟩ : BufTy).Contents (Elt F) → (⟨S1x512, .f32⟩ : BufTy).Contents (Elt F) → (⟨S1x512, .f32⟩ : BufTy).Contents (Elt F)),
    binary main_v25 main_arg2 main_v26 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    reshape main_v7 main_v27 rfl shapeCasts_S1x1x1024_S1x1024,
    binary main_v27 main_v26 main_v28 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v29 ((transpose S2048x1024 [1, 0] · transposes_S1024x2048_S2048x1024_1_0) : (⟨S1024x2048, .f32⟩ : BufTy).Contents (Elt F) → (⟨S2048x1024, .f32⟩ : BufTy).Contents (Elt F)),
    binary main_v28 main_v29 main_v30 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v31 (broadcastInDim S1x1024 ![1] bcast_S1024_S1x1024_1 : (⟨S1024, .f32⟩ : BufTy).Contents (Elt F) → (⟨S1x1024, .f32⟩ : BufTy).Contents (Elt F)),
    binary main_v30 main_v31 main_v32 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v32) (TRef.of (T := ⟨S1x1024, .f32⟩) main_call0_v0) (TRef.of (T := ⟨S1x1024, .f32⟩) main_v33) maximumf,
    unary main_arg8 main_v34 ((transpose S1024x3072 [1, 0] · transposes_S3072x1024_S1024x3072_1_0) : (⟨S3072x1024, .f32⟩ : BufTy).Contents (Elt F) → (⟨S1024x3072, .f32⟩ : BufTy).Contents (Elt F)),
    binary main_v33 main_v34 main_v35 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v36 (broadcastInDim S1x3072 ![1] bcast_S3072_S1x3072_1 : (⟨S3072, .f32⟩ : BufTy).Contents (Elt F) → (⟨S1x3072, .f32⟩ : BufTy).Contents (Elt F)),
    binary main_v35 main_v36 main_v37 (addf : (⟨S1x3072, .f32⟩ : BufTy).Contents (Elt F) → (⟨S1x3072, .f32⟩ : BufTy).Contents (Elt F) → (⟨S1x3072, .f32⟩ : BufTy).Contents (Elt F)),
    reshape main_arg1 main_v38 rfl shapeCasts_S1x1x1024_S1x1024,
    unary main_arg9 main_v39 ((transpose S1024x3072 [1, 0] · transposes_S3072x1024_S1024x3072_1_0) : (⟨S3072x1024, .f32⟩ : BufTy).Contents (Elt F) → (⟨S1024x3072, .f32⟩ : BufTy).Contents (Elt F)),
    binary main_v38 main_v39 main_v40 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v41 (broadcastInDim S1x3072 ![1] bcast_S3072_S1x3072_1 : (⟨S3072, .f32⟩ : BufTy).Contents (Elt F) → (⟨S1x3072, .f32⟩ : BufTy).Contents (Elt F)),
    binary main_v40 main_v41 main_v42 (addf : (⟨S1x3072, .f32⟩ : BufTy).Contents (Elt F) → (⟨S1x3072, .f32⟩ : BufTy).Contents (Elt F) → (⟨S1x3072, .f32⟩ : BufTy).Contents (Elt F)),
    unary main_v37 main_v43 ((extractStridedSlice S1x1024 ![0, 0] · slices_S1x3072_S1x1024_0_0) : (⟨S1x3072, .f32⟩ : BufTy).Contents (Elt F) → (⟨S1x1024, .f32⟩ : BufTy).Contents (Elt F)),
    unary main_v42 main_v44 ((extractStridedSlice S1x1024 ![0, 0] · slices_S1x3072_S1x1024_0_0) : (⟨S1x3072, .f32⟩ : BufTy).Contents (Elt F) → (⟨S1x1024, .f32⟩ : BufTy).Contents (Elt F)),
    binary main_v43 main_v44 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    unary main_v37 main_v52 ((extractStridedSlice S1x1024 ![0, 1024] · slices_S1x3072_S1x1024_0_1024) : (⟨S1x3072, .f32⟩ : BufTy).Contents (Elt F) → (⟨S1x1024, .f32⟩ : BufTy).Contents (Elt F)),
    unary main_v42 main_v53 ((extractStridedSlice S1x1024 ![0, 1024] · slices_S1x3072_S1x1024_0_1024) : (⟨S1x3072, .f32⟩ : BufTy).Contents (Elt F) → (⟨S1x1024, .f32⟩ : BufTy).Contents (Elt F)),
    binary main_v52 main_v53 main_v54 (addf : (⟨S1x1024, .f32⟩ : BufTy).Contents (Elt F) → (⟨S1x1024, .f32⟩ : BufTy).Contents (Elt F) → (⟨S1x1024, .f32⟩ : BufTy).Contents (Elt F)),
    unary main_v54 main_v55 (Host.negf : (⟨S1x1024, .f32⟩ : BufTy).Contents (Elt F) → (⟨S1x1024, .f32⟩ : BufTy).Contents (Elt F)),
    unary main_v55 main_v56 (Host.exp : (⟨S1x1024, .f32⟩ : BufTy).Contents (Elt F) → (⟨S1x1024, .f32⟩ : BufTy).Contents (Elt F)),
    nullary main_cst_5 (constant S_ .f32 0x3F800000#32),
    unary main_cst_5 main_v57 (broadcastInDim S1x1024 ![] bcast_S_S1x1024 : (⟨S_, .f32⟩ : BufTy).Contents (Elt F) → (⟨S1x1024, .f32⟩ : BufTy).Contents (Elt F)),
    binary main_v57 main_v56 main_v58 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v59 (broadcastInDim S1x1024 ![] bcast_S_S1x1024 : (⟨S_, .f32⟩ : BufTy).Contents (Elt F) → (⟨S1x1024, .f32⟩ : BufTy).Contents (Elt F)),
    binary main_v59 main_v58 main_v60 (Host.divf : (⟨S1x1024, .f32⟩ : BufTy).Contents (Elt F) → (⟨S1x1024, .f32⟩ : BufTy).Contents (Elt F) → (⟨S1x1024, .f32⟩ : BufTy).Contents (Elt F)),
    unary main_v37 main_v61 ((extractStridedSlice S1x1024 ![0, 2048] · slices_S1x3072_S1x1024_0_2048) : (⟨S1x3072, .f32⟩ : BufTy).Contents (Elt F) → (⟨S1x1024, .f32⟩ : BufTy).Contents (Elt F)),
    unary main_v42 main_v62 ((extractStridedSlice S1x1024 ![0, 2048] · slices_S1x3072_S1x1024_0_2048) : (⟨S1x3072, .f32⟩ : BufTy).Contents (Elt F) → (⟨S1x1024, .f32⟩ : BufTy).Contents (Elt F)),
    binary main_v51 main_v62 main_v63 (mulf : (⟨S1x1024, .f32⟩ : BufTy).Contents (Elt F) → (⟨S1x1024, .f32⟩ : BufTy).Contents (Elt F) → (⟨S1x1024, .f32⟩ : BufTy).Contents (Elt F)),
    binary main_v61 main_v63 main_v64 (addf : (⟨S1x1024, .f32⟩ : BufTy).Contents (Elt F) → (⟨S1x1024, .f32⟩ : BufTy).Contents (Elt F) → (⟨S1x1024, .f32⟩ : BufTy).Contents (Elt F)),
    unary main_v64 main_v65 (Host.tanh : (⟨S1x1024, .f32⟩ : BufTy).Contents (Elt F) → (⟨S1x1024, .f32⟩ : BufTy).Contents (Elt F)),
    nullary main_cst_7 (constant S_ .f32 0x3F800000#32),
    unary main_cst_7 main_v66 (broadcastInDim S1x1024 ![] bcast_S_S1x1024 : (⟨S_, .f32⟩ : BufTy).Contents (Elt F) → (⟨S1x1024, .f32⟩ : BufTy).Contents (Elt F)),
    binary main_v66 main_v60 main_v67 (subf : (⟨S1x1024, .f32⟩ : BufTy).Contents (Elt F) → (⟨S1x1024, .f32⟩ : BufTy).Contents (Elt F) → (⟨S1x1024, .f32⟩ : BufTy).Contents (Elt F)),
    binary main_v67 main_v65 main_v68 (mulf : (⟨S1x1024, .f32⟩ : BufTy).Contents (Elt F) → (⟨S1x1024, .f32⟩ : BufTy).Contents (Elt F) → (⟨S1x1024, .f32⟩ : BufTy).Contents (Elt F)),
    reshape main_arg1 main_v69 rfl shapeCasts_S1x1x1024_S1x1024,
    binary main_v60 main_v69 main_v70 (mulf : (⟨S1x1024, .f32⟩ : BufTy).Contents (Elt F) → (⟨S1x1024, .f32⟩ : BufTy).Contents (Elt F) → (⟨S1x1024, .f32⟩ : BufTy).Contents (Elt F)),
    binary main_v68 main_v70 main_v71 (addf : (⟨S1x1024, .f32⟩ : BufTy).Contents (Elt F) → (⟨S1x1024, .f32⟩ : BufTy).Contents (Elt F) → (⟨S1x1024, .f32⟩ : BufTy).Contents (Elt F)) ]

/-- The vocabulary projection, the log-softmax and the hidden row's return. -/
abbrev opsB : List (HloOp τ sig (Elt F)) :=
  [ unary main_arg12 main_v72 ((transpose S1024x50257 [1, 0] · transposes_S50257x1024_S1024x50257_1_0) : (⟨S50257x1024, .f32⟩ : BufTy).Contents (Elt F) → (⟨S1024x50257, .f32⟩ : BufTy).Contents (Elt F)),
    binary main_v71 main_v72 main_v73 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v74 (broadcastInDim S1x50257 ![1] bcast_S50257_S1x50257_1 : (⟨S50257, .f32⟩ : BufTy).Contents (Elt F) → (⟨S1x50257, .f32⟩ : BufTy).Contents (Elt F)),
    binary main_v73 main_v74 main_v75 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v75) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v75) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v76) subf,
    unary main_v71 main_v77 (broadcastInDim S1x1x1024 ![1, 2] bcast_S1x1024_S1x1x1024_1_2 : (⟨S1x1024, .f32⟩ : BufTy).Contents (Elt F) → (⟨S1x1x1024, .f32⟩ : BufTy).Contents (Elt F)) ]

/-- @main's 104 operations, in order. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_v6 main_v7 rfl shapeCasts_S1x1024_S1x1x1024,
    reshape main_v7 main_v8 rfl shapeCasts_S1x1x1024_S1x1024,
    reshape main_arg1 main_v9 rfl shapeCasts_S1x1x1024_S1x1024,
    binary main_v8 main_v9 main_v10 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v11 ((transpose S2048x512 [1, 0] · transposes_S512x2048_S2048x512_1_0) : (⟨S512x2048, .f32⟩ : BufTy).Contents (Elt F) → (⟨S2048x512, .f32⟩ : BufTy).Contents (Elt F)),
    binary main_v10 main_v11 main_v12 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v13 (broadcastInDim S1x512 ![1] bcast_S512_S1x512_1 : (⟨S512, .f32⟩ : BufTy).Contents (Elt F) → (⟨S1x512, .f32⟩ : BufTy).Contents (Elt F)),
    binary main_v12 main_v13 main_v14 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v14 main_cst main_v15 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v16 (broadcastInDim S1 ![] bcast_S_S1 : (⟨S_, .f32⟩ : BufTy).Contents (Elt F) → (⟨S1, .f32⟩ : BufTy).Contents (Elt F)),
    binary main_v16 main_v15 main_v17 (maximumf : (⟨S1, .f32⟩ : BufTy).Contents (Elt F) → (⟨S1, .f32⟩ : BufTy).Contents (Elt F) → (⟨S1, .f32⟩ : BufTy).Contents (Elt F)),
    unary main_v17 main_v18 (broadcastInDim S1x1 ![0] bcast_S1_S1x1_0 : (⟨S1, .f32⟩ : BufTy).Contents (Elt F) → (⟨S1x1, .f32⟩ : BufTy).Contents (Elt F)),
    unary main_v18 main_v19 (broadcastInDim S1x512 ![0, 1] bcast_S1x1_S1x512_0_1 : (⟨S1x1, .f32⟩ : BufTy).Contents (Elt F) → (⟨S1x512, .f32⟩ : BufTy).Contents (Elt F)),
    binary main_v14 main_v19 main_v20 (subf : (⟨S1x512, .f32⟩ : BufTy).Contents (Elt F) → (⟨S1x512, .f32⟩ : BufTy).Contents (Elt F) → (⟨S1x512, .f32⟩ : BufTy).Contents (Elt F)),
    unary main_v20 main_v21 (Host.exp : (⟨S1x512, .f32⟩ : BufTy).Contents (Elt F) → (⟨S1x512, .f32⟩ : BufTy).Contents (Elt F)),
    nullary main_cst_2 (constant S_ .f32 0x00000000#32),
    binary main_v21 main_cst_2 main_v22 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v22 main_v23 (broadcastInDim S1x1 ![0] bcast_S1_S1x1_0 : (⟨S1, .f32⟩ : BufTy).Contents (Elt F) → (⟨S1x1, .f32⟩ : BufTy).Contents (Elt F)),
    unary main_v23 main_v24 (broadcastInDim S1x512 ![0, 1] bcast_S1x1_S1x512_0_1 : (⟨S1x1, .f32⟩ : BufTy).Contents (Elt F) → (⟨S1x512, .f32⟩ : BufTy).Contents (Elt F)),
    binary main_v21 main_v24 main_v25 (Host.divf : (⟨S1x512, .f32⟩ : BufTy).Contents (Elt F) → (⟨S1x512, .f32⟩ : BufTy).Contents (Elt F) → (⟨S1x512, .f32⟩ : BufTy).Contents (Elt F)),
    binary main_v25 main_arg2 main_v26 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    reshape main_v7 main_v27 rfl shapeCasts_S1x1x1024_S1x1024,
    binary main_v27 main_v26 main_v28 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v29 ((transpose S2048x1024 [1, 0] · transposes_S1024x2048_S2048x1024_1_0) : (⟨S1024x2048, .f32⟩ : BufTy).Contents (Elt F) → (⟨S2048x1024, .f32⟩ : BufTy).Contents (Elt F)),
    binary main_v28 main_v29 main_v30 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v31 (broadcastInDim S1x1024 ![1] bcast_S1024_S1x1024_1 : (⟨S1024, .f32⟩ : BufTy).Contents (Elt F) → (⟨S1x1024, .f32⟩ : BufTy).Contents (Elt F)),
    binary main_v30 main_v31 main_v32 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v32) (TRef.of (T := ⟨S1x1024, .f32⟩) main_call0_v0) (TRef.of (T := ⟨S1x1024, .f32⟩) main_v33) maximumf,
    unary main_arg8 main_v34 ((transpose S1024x3072 [1, 0] · transposes_S3072x1024_S1024x3072_1_0) : (⟨S3072x1024, .f32⟩ : BufTy).Contents (Elt F) → (⟨S1024x3072, .f32⟩ : BufTy).Contents (Elt F)),
    binary main_v33 main_v34 main_v35 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v36 (broadcastInDim S1x3072 ![1] bcast_S3072_S1x3072_1 : (⟨S3072, .f32⟩ : BufTy).Contents (Elt F) → (⟨S1x3072, .f32⟩ : BufTy).Contents (Elt F)),
    binary main_v35 main_v36 main_v37 (addf : (⟨S1x3072, .f32⟩ : BufTy).Contents (Elt F) → (⟨S1x3072, .f32⟩ : BufTy).Contents (Elt F) → (⟨S1x3072, .f32⟩ : BufTy).Contents (Elt F)),
    reshape main_arg1 main_v38 rfl shapeCasts_S1x1x1024_S1x1024,
    unary main_arg9 main_v39 ((transpose S1024x3072 [1, 0] · transposes_S3072x1024_S1024x3072_1_0) : (⟨S3072x1024, .f32⟩ : BufTy).Contents (Elt F) → (⟨S1024x3072, .f32⟩ : BufTy).Contents (Elt F)),
    binary main_v38 main_v39 main_v40 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v41 (broadcastInDim S1x3072 ![1] bcast_S3072_S1x3072_1 : (⟨S3072, .f32⟩ : BufTy).Contents (Elt F) → (⟨S1x3072, .f32⟩ : BufTy).Contents (Elt F)),
    binary main_v40 main_v41 main_v42 (addf : (⟨S1x3072, .f32⟩ : BufTy).Contents (Elt F) → (⟨S1x3072, .f32⟩ : BufTy).Contents (Elt F) → (⟨S1x3072, .f32⟩ : BufTy).Contents (Elt F)),
    unary main_v37 main_v43 ((extractStridedSlice S1x1024 ![0, 0] · slices_S1x3072_S1x1024_0_0) : (⟨S1x3072, .f32⟩ : BufTy).Contents (Elt F) → (⟨S1x1024, .f32⟩ : BufTy).Contents (Elt F)),
    unary main_v42 main_v44 ((extractStridedSlice S1x1024 ![0, 0] · slices_S1x3072_S1x1024_0_0) : (⟨S1x3072, .f32⟩ : BufTy).Contents (Elt F) → (⟨S1x1024, .f32⟩ : BufTy).Contents (Elt F)),
    binary main_v43 main_v44 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    unary main_v37 main_v52 ((extractStridedSlice S1x1024 ![0, 1024] · slices_S1x3072_S1x1024_0_1024) : (⟨S1x3072, .f32⟩ : BufTy).Contents (Elt F) → (⟨S1x1024, .f32⟩ : BufTy).Contents (Elt F)),
    unary main_v42 main_v53 ((extractStridedSlice S1x1024 ![0, 1024] · slices_S1x3072_S1x1024_0_1024) : (⟨S1x3072, .f32⟩ : BufTy).Contents (Elt F) → (⟨S1x1024, .f32⟩ : BufTy).Contents (Elt F)),
    binary main_v52 main_v53 main_v54 (addf : (⟨S1x1024, .f32⟩ : BufTy).Contents (Elt F) → (⟨S1x1024, .f32⟩ : BufTy).Contents (Elt F) → (⟨S1x1024, .f32⟩ : BufTy).Contents (Elt F)),
    unary main_v54 main_v55 (Host.negf : (⟨S1x1024, .f32⟩ : BufTy).Contents (Elt F) → (⟨S1x1024, .f32⟩ : BufTy).Contents (Elt F)),
    unary main_v55 main_v56 (Host.exp : (⟨S1x1024, .f32⟩ : BufTy).Contents (Elt F) → (⟨S1x1024, .f32⟩ : BufTy).Contents (Elt F)),
    nullary main_cst_5 (constant S_ .f32 0x3F800000#32),
    unary main_cst_5 main_v57 (broadcastInDim S1x1024 ![] bcast_S_S1x1024 : (⟨S_, .f32⟩ : BufTy).Contents (Elt F) → (⟨S1x1024, .f32⟩ : BufTy).Contents (Elt F)),
    binary main_v57 main_v56 main_v58 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v59 (broadcastInDim S1x1024 ![] bcast_S_S1x1024 : (⟨S_, .f32⟩ : BufTy).Contents (Elt F) → (⟨S1x1024, .f32⟩ : BufTy).Contents (Elt F)),
    binary main_v59 main_v58 main_v60 (Host.divf : (⟨S1x1024, .f32⟩ : BufTy).Contents (Elt F) → (⟨S1x1024, .f32⟩ : BufTy).Contents (Elt F) → (⟨S1x1024, .f32⟩ : BufTy).Contents (Elt F)),
    unary main_v37 main_v61 ((extractStridedSlice S1x1024 ![0, 2048] · slices_S1x3072_S1x1024_0_2048) : (⟨S1x3072, .f32⟩ : BufTy).Contents (Elt F) → (⟨S1x1024, .f32⟩ : BufTy).Contents (Elt F)),
    unary main_v42 main_v62 ((extractStridedSlice S1x1024 ![0, 2048] · slices_S1x3072_S1x1024_0_2048) : (⟨S1x3072, .f32⟩ : BufTy).Contents (Elt F) → (⟨S1x1024, .f32⟩ : BufTy).Contents (Elt F)),
    binary main_v51 main_v62 main_v63 (mulf : (⟨S1x1024, .f32⟩ : BufTy).Contents (Elt F) → (⟨S1x1024, .f32⟩ : BufTy).Contents (Elt F) → (⟨S1x1024, .f32⟩ : BufTy).Contents (Elt F)),
    binary main_v61 main_v63 main_v64 (addf : (⟨S1x1024, .f32⟩ : BufTy).Contents (Elt F) → (⟨S1x1024, .f32⟩ : BufTy).Contents (Elt F) → (⟨S1x1024, .f32⟩ : BufTy).Contents (Elt F)),
    unary main_v64 main_v65 (Host.tanh : (⟨S1x1024, .f32⟩ : BufTy).Contents (Elt F) → (⟨S1x1024, .f32⟩ : BufTy).Contents (Elt F)),
    nullary main_cst_7 (constant S_ .f32 0x3F800000#32),
    unary main_cst_7 main_v66 (broadcastInDim S1x1024 ![] bcast_S_S1x1024 : (⟨S_, .f32⟩ : BufTy).Contents (Elt F) → (⟨S1x1024, .f32⟩ : BufTy).Contents (Elt F)),
    binary main_v66 main_v60 main_v67 (subf : (⟨S1x1024, .f32⟩ : BufTy).Contents (Elt F) → (⟨S1x1024, .f32⟩ : BufTy).Contents (Elt F) → (⟨S1x1024, .f32⟩ : BufTy).Contents (Elt F)),
    binary main_v67 main_v65 main_v68 (mulf : (⟨S1x1024, .f32⟩ : BufTy).Contents (Elt F) → (⟨S1x1024, .f32⟩ : BufTy).Contents (Elt F) → (⟨S1x1024, .f32⟩ : BufTy).Contents (Elt F)),
    reshape main_arg1 main_v69 rfl shapeCasts_S1x1x1024_S1x1024,
    binary main_v60 main_v69 main_v70 (mulf : (⟨S1x1024, .f32⟩ : BufTy).Contents (Elt F) → (⟨S1x1024, .f32⟩ : BufTy).Contents (Elt F) → (⟨S1x1024, .f32⟩ : BufTy).Contents (Elt F)),
    binary main_v68 main_v70 main_v71 (addf : (⟨S1x1024, .f32⟩ : BufTy).Contents (Elt F) → (⟨S1x1024, .f32⟩ : BufTy).Contents (Elt F) → (⟨S1x1024, .f32⟩ : BufTy).Contents (Elt F)),
    unary main_arg12 main_v72 ((transpose S1024x50257 [1, 0] · transposes_S50257x1024_S1024x50257_1_0) : (⟨S50257x1024, .f32⟩ : BufTy).Contents (Elt F) → (⟨S1024x50257, .f32⟩ : BufTy).Contents (Elt F)),
    binary main_v71 main_v72 main_v73 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v74 (broadcastInDim S1x50257 ![1] bcast_S50257_S1x50257_1 : (⟨S50257, .f32⟩ : BufTy).Contents (Elt F) → (⟨S1x50257, .f32⟩ : BufTy).Contents (Elt F)),
    binary main_v73 main_v74 main_v75 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v75) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v75) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v76) subf,
    unary main_v71 main_v77 (broadcastInDim S1x1x1024 ![1, 2] bcast_S1x1024_S1x1x1024_1_2 : (⟨S1x1024, .f32⟩ : BufTy).Contents (Elt F) → (⟨S1x1x1024, .f32⟩ : BufTy).Contents (Elt F)) ]

/-- The first 84 operations in three stretches, cut before each of the two concatenations: up to the embedding row and
    the old hidden row as 1×1024 rows; the attention scores, their softmax and the weighted context; the rest. -/
abbrev opsA1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_v6 main_v7 rfl shapeCasts_S1x1024_S1x1x1024,
    reshape main_v7 main_v8 rfl shapeCasts_S1x1x1024_S1x1024,
    reshape main_arg1 main_v9 rfl shapeCasts_S1x1x1024_S1x1024 ]
abbrev opsA2 : List (HloOp τ sig (Elt F)) :=
  [ binary main_v8 main_v9 main_v10 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v11 ((transpose S2048x512 [1, 0] · transposes_S512x2048_S2048x512_1_0) : (⟨S512x2048, .f32⟩ : BufTy).Contents (Elt F) → (⟨S2048x512, .f32⟩ : BufTy).Contents (Elt F)),
    binary main_v10 main_v11 main_v12 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v13 (broadcastInDim S1x512 ![1] bcast_S512_S1x512_1 : (⟨S512, .f32⟩ : BufTy).Contents (Elt F) → (⟨S1x512, .f32⟩ : BufTy).Contents (Elt F)),
    binary main_v12 main_v13 main_v14 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v14 main_cst main_v15 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v16 (broadcastInDim S1 ![] bcast_S_S1 : (⟨S_, .f32⟩ : BufTy).Contents (Elt F) → (⟨S1, .f32⟩ : BufTy).Contents (Elt F)),
    binary main_v16 main_v15 main_v17 (maximumf : (⟨S1, .f32⟩ : BufTy).Contents (Elt F) → (⟨S1, .f32⟩ : BufTy).Contents (Elt F) → (⟨S1, .f32⟩ : BufTy).Contents (Elt F)),
    unary main_v17 main_v18 (broadcastInDim S1x1 ![0] bcast_S1_S1x1_0 : (⟨S1, .f32⟩ : BufTy).Contents (Elt F) → (⟨S1x1, .f32⟩ : BufTy).Contents (Elt F)),
    unary main_v18 main_v19 (broadcastInDim S1x512 ![0, 1] bcast_S1x1_S1x512_0_1 : (⟨S1x1, .f32⟩ : BufTy).Contents (Elt F) → (⟨S1x512, .f32⟩ : BufTy).Contents (Elt F)),
    binary main_v14 main_v19 main_v20 (subf : (⟨S1x512, .f32⟩ : BufTy).Contents (Elt F) → (⟨S1x512, .f32⟩ : BufTy).Contents (Elt F) → (⟨S1x512, .f32⟩ : BufTy).Contents (Elt F)),
    unary main_v20 main_v21 (Host.exp : (⟨S1x512, .f32⟩ : BufTy).Contents (Elt F) → (⟨S1x512, .f32⟩ : BufTy).Contents (Elt F)),
    nullary main_cst_2 (constant S_ .f32 0x00000000#32),
    binary main_v21 main_cst_2 main_v22 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v22 main_v23 (broadcastInDim S1x1 ![0] bcast_S1_S1x1_0 : (⟨S1, .f32⟩ : BufTy).Contents (Elt F) → (⟨S1x1, .f32⟩ : BufTy).Contents (Elt F)),
    unary main_v23 main_v24 (broadcastInDim S1x512 ![0, 1] bcast_S1x1_S1x512_0_1 : (⟨S1x1, .f32⟩ : BufTy).Contents (Elt F) → (⟨S1x512, .f32⟩ : BufTy).Contents (Elt F)),
    binary main_v21 main_v24 main_v25 (Host.divf : (⟨S1x512, .f32⟩ : BufTy).Contents (Elt F) → (⟨S1x512, .f32⟩ : BufTy).Contents (Elt F) → (⟨S1x512, .f32⟩ : BufTy).Contents (Elt F)),
    binary main_v25 main_arg2 main_v26 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    reshape main_v7 main_v27 rfl shapeCasts_S1x1x1024_S1x1024 ]
abbrev opsA3 : List (HloOp τ sig (Elt F)) :=
  [ binary main_v27 main_v26 main_v28 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v29 ((transpose S2048x1024 [1, 0] · transposes_S1024x2048_S2048x1024_1_0) : (⟨S1024x2048, .f32⟩ : BufTy).Contents (Elt F) → (⟨S2048x1024, .f32⟩ : BufTy).Contents (Elt F)),
    binary main_v28 main_v29 main_v30 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v31 (broadcastInDim S1x1024 ![1] bcast_S1024_S1x1024_1 : (⟨S1024, .f32⟩ : BufTy).Contents (Elt F) → (⟨S1x1024, .f32⟩ : BufTy).Contents (Elt F)),
    binary main_v30 main_v31 main_v32 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v32) (TRef.of (T := ⟨S1x1024, .f32⟩) main_call0_v0) (TRef.of (T := ⟨S1x1024, .f32⟩) main_v33) maximumf,
    unary main_arg8 main_v34 ((transpose S1024x3072 [1, 0] · transposes_S3072x1024_S1024x3072_1_0) : (⟨S3072x1024, .f32⟩ : BufTy).Contents (Elt F) → (⟨S1024x3072, .f32⟩ : BufTy).Contents (Elt F)),
    binary main_v33 main_v34 main_v35 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v36 (broadcastInDim S1x3072 ![1] bcast_S3072_S1x3072_1 : (⟨S3072, .f32⟩ : BufTy).Contents (Elt F) → (⟨S1x3072, .f32⟩ : BufTy).Contents (Elt F)),
    binary main_v35 main_v36 main_v37 (addf : (⟨S1x3072, .f32⟩ : BufTy).Contents (Elt F) → (⟨S1x3072, .f32⟩ : BufTy).Contents (Elt F) → (⟨S1x3072, .f32⟩ : BufTy).Contents (Elt F)),
    reshape main_arg1 main_v38 rfl shapeCasts_S1x1x1024_S1x1024,
    unary main_arg9 main_v39 ((transpose S1024x3072 [1, 0] · transposes_S3072x1024_S1024x3072_1_0) : (⟨S3072x1024, .f32⟩ : BufTy).Contents (Elt F) → (⟨S1024x3072, .f32⟩ : BufTy).Contents (Elt F)),
    binary main_v38 main_v39 main_v40 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v41 (broadcastInDim S1x3072 ![1] bcast_S3072_S1x3072_1 : (⟨S3072, .f32⟩ : BufTy).Contents (Elt F) → (⟨S1x3072, .f32⟩ : BufTy).Contents (Elt F)),
    binary main_v40 main_v41 main_v42 (addf : (⟨S1x3072, .f32⟩ : BufTy).Contents (Elt F) → (⟨S1x3072, .f32⟩ : BufTy).Contents (Elt F) → (⟨S1x3072, .f32⟩ : BufTy).Contents (Elt F)),
    unary main_v37 main_v43 ((extractStridedSlice S1x1024 ![0, 0] · slices_S1x3072_S1x1024_0_0) : (⟨S1x3072, .f32⟩ : BufTy).Contents (Elt F) → (⟨S1x1024, .f32⟩ : BufTy).Contents (Elt F)),
    unary main_v42 main_v44 ((extractStridedSlice S1x1024 ![0, 0] · slices_S1x3072_S1x1024_0_0) : (⟨S1x3072, .f32⟩ : BufTy).Contents (Elt F) → (⟨S1x1024, .f32⟩ : BufTy).Contents (Elt F)),
    binary main_v43 main_v44 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    unary main_v37 main_v52 ((extractStridedSlice S1x1024 ![0, 1024] · slices_S1x3072_S1x1024_0_1024) : (⟨S1x3072, .f32⟩ : BufTy).Contents (Elt F) → (⟨S1x1024, .f32⟩ : BufTy).Contents (Elt F)),
    unary main_v42 main_v53 ((extractStridedSlice S1x1024 ![0, 1024] · slices_S1x3072_S1x1024_0_1024) : (⟨S1x3072, .f32⟩ : BufTy).Contents (Elt F) → (⟨S1x1024, .f32⟩ : BufTy).Contents (Elt F)),
    binary main_v52 main_v53 main_v54 (addf : (⟨S1x1024, .f32⟩ : BufTy).Contents (Elt F) → (⟨S1x1024, .f32⟩ : BufTy).Contents (Elt F) → (⟨S1x1024, .f32⟩ : BufTy).Contents (Elt F)),
    unary main_v54 main_v55 (Host.negf : (⟨S1x1024, .f32⟩ : BufTy).Contents (Elt F) → (⟨S1x1024, .f32⟩ : BufTy).Contents (Elt F)),
    unary main_v55 main_v56 (Host.exp : (⟨S1x1024, .f32⟩ : BufTy).Contents (Elt F) → (⟨S1x1024, .f32⟩ : BufTy).Contents (Elt F)),
    nullary main_cst_5 (constant S_ .f32 0x3F800000#32),
    unary main_cst_5 main_v57 (broadcastInDim S1x1024 ![] bcast_S_S1x1024 : (⟨S_, .f32⟩ : BufTy).Contents (Elt F) → (⟨S1x1024, .f32⟩ : BufTy).Contents (Elt F)),
    binary main_v57 main_v56 main_v58 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v59 (broadcastInDim S1x1024 ![] bcast_S_S1x1024 : (⟨S_, .f32⟩ : BufTy).Contents (Elt F) → (⟨S1x1024, .f32⟩ : BufTy).Contents (Elt F)),
    binary main_v59 main_v58 main_v60 (Host.divf : (⟨S1x1024, .f32⟩ : BufTy).Contents (Elt F) → (⟨S1x1024, .f32⟩ : BufTy).Contents (Elt F) → (⟨S1x1024, .f32⟩ : BufTy).Contents (Elt F)),
    unary main_v37 main_v61 ((extractStridedSlice S1x1024 ![0, 2048] · slices_S1x3072_S1x1024_0_2048) : (⟨S1x3072, .f32⟩ : BufTy).Contents (Elt F) → (⟨S1x1024, .f32⟩ : BufTy).Contents (Elt F)),
    unary main_v42 main_v62 ((extractStridedSlice S1x1024 ![0, 2048] · slices_S1x3072_S1x1024_0_2048) : (⟨S1x3072, .f32⟩ : BufTy).Contents (Elt F) → (⟨S1x1024, .f32⟩ : BufTy).Contents (Elt F)),
    binary main_v51 main_v62 main_v63 (mulf : (⟨S1x1024, .f32⟩ : BufTy).Contents (Elt F) → (⟨S1x1024, .f32⟩ : BufTy).Contents (Elt F) → (⟨S1x1024, .f32⟩ : BufTy).Contents (Elt F)),
    binary main_v61 main_v63 main_v64 (addf : (⟨S1x1024, .f32⟩ : BufTy).Contents (Elt F) → (⟨S1x1024, .f32⟩ : BufTy).Contents (Elt F) → (⟨S1x1024, .f32⟩ : BufTy).Contents (Elt F)),
    unary main_v64 main_v65 (Host.tanh : (⟨S1x1024, .f32⟩ : BufTy).Contents (Elt F) → (⟨S1x1024, .f32⟩ : BufTy).Contents (Elt F)),
    nullary main_cst_7 (constant S_ .f32 0x3F800000#32),
    unary main_cst_7 main_v66 (broadcastInDim S1x1024 ![] bcast_S_S1x1024 : (⟨S_, .f32⟩ : BufTy).Contents (Elt F) → (⟨S1x1024, .f32⟩ : BufTy).Contents (Elt F)),
    binary main_v66 main_v60 main_v67 (subf : (⟨S1x1024, .f32⟩ : BufTy).Contents (Elt F) → (⟨S1x1024, .f32⟩ : BufTy).Contents (Elt F) → (⟨S1x1024, .f32⟩ : BufTy).Contents (Elt F)),
    binary main_v67 main_v65 main_v68 (mulf : (⟨S1x1024, .f32⟩ : BufTy).Contents (Elt F) → (⟨S1x1024, .f32⟩ : BufTy).Contents (Elt F) → (⟨S1x1024, .f32⟩ : BufTy).Contents (Elt F)),
    reshape main_arg1 main_v69 rfl shapeCasts_S1x1x1024_S1x1024,
    binary main_v60 main_v69 main_v70 (mulf : (⟨S1x1024, .f32⟩ : BufTy).Contents (Elt F) → (⟨S1x1024, .f32⟩ : BufTy).Contents (Elt F) → (⟨S1x1024, .f32⟩ : BufTy).Contents (Elt F)),
    binary main_v68 main_v70 main_v71 (addf : (⟨S1x1024, .f32⟩ : BufTy).Contents (Elt F) → (⟨S1x1024, .f32⟩ : BufTy).Contents (Elt F) → (⟨S1x1024, .f32⟩ : BufTy).Contents (Elt F)) ]

theorem opsA_split : (opsA : List (HloOp τ sig (Elt F))) = opsA1 ++ (opsA2 ++ opsA3) := rfl

theorem ops_split : (ops : List (HloOp τ sig (Elt F))) = opsA ++ opsB := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., reshape_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., unary_bufs_sub .., binary_bufs_sub .., binary_bufs_sub .., reshape_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

/-- Every weakly fair execution of @main terminates with every buffer at the fold of the operations' results. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

set_option maxHeartbeats 16000000 in
/-- No operation writes an argument. -/
theorem ops_keep (W : Valuation τ sig (Elt F)) (b : Ref sig .tc)
    (hb : b ∈ ([main_arg0, main_arg1, main_arg2, main_arg3, main_arg4, main_arg5, main_arg6, main_arg7, main_arg8, main_arg9, main_arg10, main_arg11, main_arg12, main_arg13] : List (Ref sig .tc))) :
    after ops W (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl
  all_goals
    refine after_of_forall_not_mem _ _ (List.forall_iff_forall_mem.mp ?_)
    simp only [List.Forall, nullary_writes, unary_writes, binary_writes, ternary_writes, quaternary_writes, reshape_writes, binaryIndexed_writes, Finset.mem_singleton]
    repeat' apply And.intro
    all_goals exact devRef_ne_of_ne (by decide)

set_option maxHeartbeats 16000000 in
/-- Nor does any of the first 84. -/
theorem opsA_keep (W : Valuation τ sig (Elt F)) (b : Ref sig .tc)
    (hb : b ∈ ([main_arg0, main_arg1, main_arg2, main_arg3, main_arg4, main_arg5, main_arg6, main_arg7, main_arg8, main_arg9, main_arg10, main_arg11, main_arg12, main_arg13] : List (Ref sig .tc))) :
    after opsA W (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl
  all_goals
    refine after_of_forall_not_mem _ _ (List.forall_iff_forall_mem.mp ?_)
    simp only [List.Forall, nullary_writes, unary_writes, binary_writes, ternary_writes, quaternary_writes, reshape_writes, binaryIndexed_writes, Finset.mem_singleton]
    repeat' apply And.intro
    all_goals exact devRef_ne_of_ne (by decide)

/-- THE FRAME's post: the arguments end as launched. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide))⟩) (run_raw m ρ)

end Cert.ReferenceIdeal.Hand

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.Bridge.lean ====
/-
  The two idealized programs compute the same three results.

  Both programs begin with the same host computation of the attention weights and of the new hidden row from the
  arguments (an embedding row gathered at the token, a softmax over 512 scores, two dense layers, one GRU step): the
  kernel's is the host lines before its region, the reference's its first 84 operations. Read back operation by
  operation from valuations that agree on the arguments, the two are the same term.

  The logits: the kernel's result array is Σ_k h(0, k) · W(j, k) + b(0, j) with b the bias reshaped to a row; the
  reference's is its `dot_general` of h with the TRANSPOSE of W, plus the bias broadcast to a row. Entry (k, j) of the
  transpose is W(j, k), and both layouts of the bias read entry j: the two rows agree entry by entry, with no algebra
  beyond reading the indices.

  Both programs end with the same log-softmax of that row, and return the hidden row as a 1×1×1024 array and the
  attention weights as they are.
-/
import proofs.«117048_j14027363189411_2_alg».proof.Proof.KIValue
import proofs.«117048_j14027363189411_2_alg».proof.Proof.RefRun
import proofs.«117048_j14027363189411_2_alg».proof.Proof.LibPlainDot
import Idealize.ShloMosaic.Lib.ValueLayout

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem Idealize.ShloMosaic.StableHlo
open Idealize.ShloMosaic.Pipeline (Dat)

/-! ## Reading a line of host operations back -/

/-- Contents carried to a typed reference's buffer and back are the contents. -/
theorem ofBuf_toBuf {sg : RefSig} {T : BufTy} (x : TRef sg T) (v : T.Contents (Elt Ideal)) : x.ofBuf (x.toBuf v) = v := by
  obtain ⟨r, h, hd, hu⟩ := x
  subst h
  rfl

/-- At a buffer whose type is the value's the transport is the identity: the rectifier's operand and result, the
    log-softmax's operand and result, in either program. -/
theorem strip_k32 (u : (Proc.devRef (τ := τ) .tc main_v32 : DevRef τ sig).ty.Contents (Elt Ideal)) :
    (TRef.of main_v32 : TRef sig ⟨S1x1024, .f32⟩).ofBuf u = u := rfl
theorem strip_k33 (v : (⟨S1x1024, .f32⟩ : BufTy).Contents (Elt Ideal)) :
    (TRef.of main_v33 : TRef sig ⟨S1x1024, .f32⟩).toBuf v = v := rfl
theorem strip_k71 (u : (Proc.devRef (τ := τ) .tc main_v71 : DevRef τ sig).ty.Contents (Elt Ideal)) :
    (TRef.of main_v71 : TRef sig ⟨S1x50257, .f32⟩).ofBuf u = u := rfl
theorem strip_k72 (v : (⟨S1x50257, .f32⟩ : BufTy).Contents (Elt Ideal)) :
    (TRef.of main_v72 : TRef sig ⟨S1x50257, .f32⟩).toBuf v = v := rfl
theorem strip_r32 (u : (Proc.devRef (τ := Cert.ReferenceIdeal.τ) .tc Cert.ReferenceIdeal.main_v32 : DevRef Cert.ReferenceIdeal.τ Cert.ReferenceIdeal.sig).ty.Contents (Elt Ideal)) :
    (TRef.of Cert.ReferenceIdeal.main_v32 : TRef Cert.ReferenceIdeal.sig ⟨Cert.ReferenceIdeal.S1x1024, .f32⟩).ofBuf u = u := rfl
theorem strip_r33 (v : (⟨Cert.ReferenceIdeal.S1x1024, .f32⟩ : BufTy).Contents (Elt Ideal)) :
    (TRef.of Cert.ReferenceIdeal.main_v33 : TRef Cert.ReferenceIdeal.sig ⟨Cert.ReferenceIdeal.S1x1024, .f32⟩).toBuf v = v := rfl
theorem strip_r75 (u : (Proc.devRef (τ := Cert.ReferenceIdeal.τ) .tc Cert.ReferenceIdeal.main_v75 : DevRef Cert.ReferenceIdeal.τ Cert.ReferenceIdeal.sig).ty.Contents (Elt Ideal)) :
    (TRef.of Cert.ReferenceIdeal.main_v75 : TRef Cert.ReferenceIdeal.sig ⟨Cert.ReferenceIdeal.S1x50257, .f32⟩).ofBuf u = u := rfl
theorem strip_r76 (v : (⟨Cert.ReferenceIdeal.S1x50257, .f32⟩ : BufTy).Contents (Elt Ideal)) :
    (TRef.of Cert.ReferenceIdeal.main_v76 : TRef Cert.ReferenceIdeal.sig ⟨Cert.ReferenceIdeal.S1x50257, .f32⟩).toBuf v = v := rfl

/-! ## The host computation before the projection: the same in both programs

Each program's line is cut before its two concatenations, into three stretches: up to the embedding row and the old
hidden row as 1×1024 rows; the attention scores, their softmax and the weighted context; the dense layer, the rectifier
and the GRU step. Stretch by stretch, read from valuations that agree on what the stretch reads, the two programs
write the same values (the kernel program reshapes the old hidden row once and keeps it, the reference reshapes it
again where it needs it: the same row). -/

/-- A buffer none of a line's operations writes keeps its contents. -/
macro "not_written" : tactic =>
  `(tactic| (refine after_of_forall_not_mem _ _ (List.forall_iff_forall_mem.mp ?_)
             simp only [List.Forall, nullary_writes, unary_writes, binary_writes, ternary_writes, quaternary_writes, reshape_writes,
               binaryIndexed_writes, Finset.mem_singleton]
             repeat' apply And.intro
             all_goals exact devRef_ne_of_ne (by decide)))

section Lists
variable {F : FTy → Type} [FloatOps F]
/-- The kernel program's host lines before the region, in the three stretches. -/
abbrev kA1 : List (HloOp τ sig (Elt F)) :=
  [ StableHlo.nullary main_c (constantI S_ 32 0#32),
    StableHlo.unary main_c main_v0 (broadcastInDim S1 ![] bcast_S_S1 : (⟨S_, .i32⟩ : BufTy).Contents (Elt F) → (⟨S1, .i32⟩ : BufTy).Contents (Elt F)),
    StableHlo.binary main_arg0 main_v0 main_v1 (cmpi .slt : (⟨S1, .i32⟩ : BufTy).Contents (Elt F) → (⟨S1, .i32⟩ : BufTy).Contents (Elt F) → (⟨S1, .i1⟩ : BufTy).Contents (Elt F)),
    StableHlo.nullary main_c_0 (constantI S_ 32 50257#32),
    StableHlo.unary main_c_0 main_v2 (broadcastInDim S1 ![] bcast_S_S1 : (⟨S_, .i32⟩ : BufTy).Contents (Elt F) → (⟨S1, .i32⟩ : BufTy).Contents (Elt F)),
    StableHlo.binary main_arg0 main_v2 main_v3 (addi : (⟨S1, .i32⟩ : BufTy).Contents (Elt F) → (⟨S1, .i32⟩ : BufTy).Contents (Elt F) → (⟨S1, .i32⟩ : BufTy).Contents (Elt F)),
    StableHlo.ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v4 main_v5 (broadcastInDim S1x1 ![0] bcast_S1_S1x1_0 : (⟨S1, .i32⟩ : BufTy).Contents (Elt F) → (⟨S1x1, .i32⟩ : BufTy).Contents (Elt F)),
    StableHlo.binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    StableHlo.reshape main_v6 main_v7 rfl shapeCasts_S1x1024_S1x1x1024,
    StableHlo.reshape main_arg1 main_v8 rfl shapeCasts_S1x1x1024_S1x1024,
    StableHlo.reshape main_v7 main_v9 rfl shapeCasts_S1x1x1024_S1x1024 ]
abbrev kA2 : List (HloOp τ sig (Elt F)) :=
  [ StableHlo.binary main_v9 main_v8 main_v10 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    StableHlo.unary main_arg4 main_v11 ((transpose S2048x512 [1, 0] · transposes_S512x2048_S2048x512_1_0) : (⟨S512x2048, .f32⟩ : BufTy).Contents (Elt F) → (⟨S2048x512, .f32⟩ : BufTy).Contents (Elt F)),
    StableHlo.binary main_v10 main_v11 main_v12 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    StableHlo.unary main_arg5 main_v13 (broadcastInDim S1x512 ![1] bcast_S512_S1x512_1 : (⟨S512, .f32⟩ : BufTy).Contents (Elt F) → (⟨S1x512, .f32⟩ : BufTy).Contents (Elt F)),
    StableHlo.binary main_v12 main_v13 main_v14 (addf : (⟨S1x512, .f32⟩ : BufTy).Contents (Elt F) → (⟨S1x512, .f32⟩ : BufTy).Contents (Elt F) → (⟨S1x512, .f32⟩ : BufTy).Contents (Elt F)),
    StableHlo.nullary main_cst (constant S_ .f32 0xFF800000#32),
    StableHlo.binary main_v14 main_cst main_v15 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.nullary main_cst_1 (constant S_ .f32 0xFF800000#32),
    StableHlo.unary main_cst_1 main_v16 (broadcastInDim S1 ![] bcast_S_S1 : (⟨S_, .f32⟩ : BufTy).Contents (Elt F) → (⟨S1, .f32⟩ : BufTy).Contents (Elt F)),
    StableHlo.binary main_v16 main_v15 main_v17 (maximumf : (⟨S1, .f32⟩ : BufTy).Contents (Elt F) → (⟨S1, .f32⟩ : BufTy).Contents (Elt F) → (⟨S1, .f32⟩ : BufTy).Contents (Elt F)),
    StableHlo.unary main_v17 main_v18 (broadcastInDim S1x1 ![0] bcast_S1_S1x1_0 : (⟨S1, .f32⟩ : BufTy).Contents (Elt F) → (⟨S1x1, .f32⟩ : BufTy).Contents (Elt F)),
    StableHlo.unary main_v18 main_v19 (broadcastInDim S1x512 ![0, 1] bcast_S1x1_S1x512_0_1 : (⟨S1x1, .f32⟩ : BufTy).Contents (Elt F) → (⟨S1x512, .f32⟩ : BufTy).Contents (Elt F)),
    StableHlo.binary main_v14 main_v19 main_v20 (subf : (⟨S1x512, .f32⟩ : BufTy).Contents (Elt F) → (⟨S1x512, .f32⟩ : BufTy).Contents (Elt F) → (⟨S1x512, .f32⟩ : BufTy).Contents (Elt F)),
    StableHlo.unary main_v20 main_v21 (Host.exp : (⟨S1x512, .f32⟩ : BufTy).Contents (Elt F) → (⟨S1x512, .f32⟩ : BufTy).Contents (Elt F)),
    StableHlo.nullary main_cst_2 (constant S_ .f32 0x00000000#32),
    StableHlo.binary main_v21 main_cst_2 main_v22 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.unary main_v22 main_v23 (broadcastInDim S1x1 ![0] bcast_S1_S1x1_0 : (⟨S1, .f32⟩ : BufTy).Contents (Elt F) → (⟨S1x1, .f32⟩ : BufTy).Contents (Elt F)),
    StableHlo.unary main_v23 main_v24 (broadcastInDim S1x512 ![0, 1] bcast_S1x1_S1x512_0_1 : (⟨S1x1, .f32⟩ : BufTy).Contents (Elt F) → (⟨S1x512, .f32⟩ : BufTy).Contents (Elt F)),
    StableHlo.binary main_v21 main_v24 main_v25 (Host.divf : (⟨S1x512, .f32⟩ : BufTy).Contents (Elt F) → (⟨S1x512, .f32⟩ : BufTy).Contents (Elt F) → (⟨S1x512, .f32⟩ : BufTy).Contents (Elt F)),
    StableHlo.binary main_v25 main_arg2 main_v26 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    StableHlo.reshape main_v7 main_v27 rfl shapeCasts_S1x1x1024_S1x1024 ]
abbrev kA3 : List (HloOp τ sig (Elt F)) :=
  [ StableHlo.binary main_v27 main_v26 main_v28 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    StableHlo.unary main_arg6 main_v29 ((transpose S2048x1024 [1, 0] · transposes_S1024x2048_S2048x1024_1_0) : (⟨S1024x2048, .f32⟩ : BufTy).Contents (Elt F) → (⟨S2048x1024, .f32⟩ : BufTy).Contents (Elt F)),
    StableHlo.binary main_v28 main_v29 main_v30 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    StableHlo.unary main_arg7 main_v31 (broadcastInDim S1x1024 ![1] bcast_S1024_S1x1024_1 : (⟨S1024, .f32⟩ : BufTy).Contents (Elt F) → (⟨S1x1024, .f32⟩ : BufTy).Contents (Elt F)),
    StableHlo.binary main_v30 main_v31 main_v32 (addf : (⟨S1x1024, .f32⟩ : BufTy).Contents (Elt F) → (⟨S1x1024, .f32⟩ : BufTy).Contents (Elt F) → (⟨S1x1024, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1x1024, .f32⟩) (broadcastInDim S1x1024 ![] bcast_S_S1x1024),
    StableHlo.TRef.binary (.of main_v32 : StableHlo.TRef sig ⟨S1x1024, .f32⟩) (.of main_call0_v0 : StableHlo.TRef sig ⟨S1x1024, .f32⟩) (.of main_v33 : StableHlo.TRef sig ⟨S1x1024, .f32⟩) maximumf,
    StableHlo.unary main_arg8 main_v34 ((transpose S1024x3072 [1, 0] · transposes_S3072x1024_S1024x3072_1_0) : (⟨S3072x1024, .f32⟩ : BufTy).Contents (Elt F) → (⟨S1024x3072, .f32⟩ : BufTy).Contents (Elt F)),
    StableHlo.binary main_v33 main_v34 main_v35 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    StableHlo.unary main_arg10 main_v36 (broadcastInDim S1x3072 ![1] bcast_S3072_S1x3072_1 : (⟨S3072, .f32⟩ : BufTy).Contents (Elt F) → (⟨S1x3072, .f32⟩ : BufTy).Contents (Elt F)),
    StableHlo.binary main_v35 main_v36 main_v37 (addf : (⟨S1x3072, .f32⟩ : BufTy).Contents (Elt F) → (⟨S1x3072, .f32⟩ : BufTy).Contents (Elt F) → (⟨S1x3072, .f32⟩ : BufTy).Contents (Elt F)),
    StableHlo.unary main_arg9 main_v38 ((transpose S1024x3072 [1, 0] · transposes_S3072x1024_S1024x3072_1_0) : (⟨S3072x1024, .f32⟩ : BufTy).Contents (Elt F) → (⟨S1024x3072, .f32⟩ : BufTy).Contents (Elt F)),
    StableHlo.binary main_v8 main_v38 main_v39 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    StableHlo.unary main_arg11 main_v40 (broadcastInDim S1x3072 ![1] bcast_S3072_S1x3072_1 : (⟨S3072, .f32⟩ : BufTy).Contents (Elt F) → (⟨S1x3072, .f32⟩ : BufTy).Contents (Elt F)),
    StableHlo.binary main_v39 main_v40 main_v41 (addf : (⟨S1x3072, .f32⟩ : BufTy).Contents (Elt F) → (⟨S1x3072, .f32⟩ : BufTy).Contents (Elt F) → (⟨S1x3072, .f32⟩ : BufTy).Contents (Elt F)),
    StableHlo.unary main_v37 main_v42 ((extractStridedSlice S1x1024 ![0, 0] · slices_S1x3072_S1x1024_0_0) : (⟨S1x3072, .f32⟩ : BufTy).Contents (Elt F) → (⟨S1x1024, .f32⟩ : BufTy).Contents (Elt F)),
    StableHlo.unary main_v41 main_v43 ((extractStridedSlice S1x1024 ![0, 0] · slices_S1x3072_S1x1024_0_0) : (⟨S1x3072, .f32⟩ : BufTy).Contents (Elt F) → (⟨S1x1024, .f32⟩ : BufTy).Contents (Elt F)),
    StableHlo.binary main_v42 main_v43 main_v44 (addf : (⟨S1x1024, .f32⟩ : BufTy).Contents (Elt F) → (⟨S1x1024, .f32⟩ : BufTy).Contents (Elt F) → (⟨S1x1024, .f32⟩ : BufTy).Contents (Elt F)),
    StableHlo.unary main_v44 main_v45 (Host.negf : (⟨S1x1024, .f32⟩ : BufTy).Contents (Elt F) → (⟨S1x1024, .f32⟩ : BufTy).Contents (Elt F)),
    StableHlo.unary main_v45 main_v46 (Host.exp : (⟨S1x1024, .f32⟩ : BufTy).Contents (Elt F) → (⟨S1x1024, .f32⟩ : BufTy).Contents (Elt F)),
    StableHlo.nullary main_cst_3 (constant S_ .f32 0x3F800000#32),
    StableHlo.unary main_cst_3 main_v47 (broadcastInDim S1x1024 ![] bcast_S_S1x1024 : (⟨S_, .f32⟩ : BufTy).Contents (Elt F) → (⟨S1x1024, .f32⟩ : BufTy).Contents (Elt F)),
    StableHlo.binary main_v47 main_v46 main_v48 (addf : (⟨S1x1024, .f32⟩ : BufTy).Contents (Elt F) → (⟨S1x1024, .f32⟩ : BufTy).Contents (Elt F) → (⟨S1x1024, .f32⟩ : BufTy).Contents (Elt F)),
    StableHlo.nullary main_cst_4 (constant S_ .f32 0x3F800000#32),
    StableHlo.unary main_cst_4 main_v49 (broadcastInDim S1x1024 ![] bcast_S_S1x1024 : (⟨S_, .f32⟩ : BufTy).Contents (Elt F) → (⟨S1x1024, .f32⟩ : BufTy).Contents (Elt F)),
    StableHlo.binary main_v49 main_v48 main_v50 (Host.divf : (⟨S1x1024, .f32⟩ : BufTy).Contents (Elt F) → (⟨S1x1024, .f32⟩ : BufTy).Contents (Elt F) → (⟨S1x1024, .f32⟩ : BufTy).Contents (Elt F)),
    StableHlo.unary main_v37 main_v51 ((extractStridedSlice S1x1024 ![0, 1024] · slices_S1x3072_S1x1024_0_1024) : (⟨S1x3072, .f32⟩ : BufTy).Contents (Elt F) → (⟨S1x1024, .f32⟩ : BufTy).Contents (Elt F)),
    StableHlo.unary main_v41 main_v52 ((extractStridedSlice S1x1024 ![0, 1024] · slices_S1x3072_S1x1024_0_1024) : (⟨S1x3072, .f32⟩ : BufTy).Contents (Elt F) → (⟨S1x1024, .f32⟩ : BufTy).Contents (Elt F)),
    StableHlo.binary main_v51 main_v52 main_v53 (addf : (⟨S1x1024, .f32⟩ : BufTy).Contents (Elt F) → (⟨S1x1024, .f32⟩ : BufTy).Contents (Elt F) → (⟨S1x1024, .f32⟩ : BufTy).Contents (Elt F)),
    StableHlo.unary main_v53 main_v54 (Host.negf : (⟨S1x1024, .f32⟩ : BufTy).Contents (Elt F) → (⟨S1x1024, .f32⟩ : BufTy).Contents (Elt F)),
    StableHlo.unary main_v54 main_v55 (Host.exp : (⟨S1x1024, .f32⟩ : BufTy).Contents (Elt F) → (⟨S1x1024, .f32⟩ : BufTy).Contents (Elt F)),
    StableHlo.nullary main_cst_5 (constant S_ .f32 0x3F800000#32),
    StableHlo.unary main_cst_5 main_v56 (broadcastInDim S1x1024 ![] bcast_S_S1x1024 : (⟨S_, .f32⟩ : BufTy).Contents (Elt F) → (⟨S1x1024, .f32⟩ : BufTy).Contents (Elt F)),
    StableHlo.binary main_v56 main_v55 main_v57 (addf : (⟨S1x1024, .f32⟩ : BufTy).Contents (Elt F) → (⟨S1x1024, .f32⟩ : BufTy).Contents (Elt F) → (⟨S1x1024, .f32⟩ : BufTy).Contents (Elt F)),
    StableHlo.nullary main_cst_6 (constant S_ .f32 0x3F800000#32),
    StableHlo.unary main_cst_6 main_v58 (broadcastInDim S1x1024 ![] bcast_S_S1x1024 : (⟨S_, .f32⟩ : BufTy).Contents (Elt F) → (⟨S1x1024, .f32⟩ : BufTy).Contents (Elt F)),
    StableHlo.binary main_v58 main_v57 main_v59 (Host.divf : (⟨S1x1024, .f32⟩ : BufTy).Contents (Elt F) → (⟨S1x1024, .f32⟩ : BufTy).Contents (Elt F) → (⟨S1x1024, .f32⟩ : BufTy).Contents (Elt F)),
    StableHlo.unary main_v37 main_v60 ((extractStridedSlice S1x1024 ![0, 2048] · slices_S1x3072_S1x1024_0_2048) : (⟨S1x3072, .f32⟩ : BufTy).Contents (Elt F) → (⟨S1x1024, .f32⟩ : BufTy).Contents (Elt F)),
    StableHlo.unary main_v41 main_v61 ((extractStridedSlice S1x1024 ![0, 2048] · slices_S1x3072_S1x1024_0_2048) : (⟨S1x3072, .f32⟩ : BufTy).Contents (Elt F) → (⟨S1x1024, .f32⟩ : BufTy).Contents (Elt F)),
    StableHlo.binary main_v50 main_v61 main_v62 (mulf : (⟨S1x1024, .f32⟩ : BufTy).Contents (Elt F) → (⟨S1x1024, .f32⟩ : BufTy).Contents (Elt F) → (⟨S1x1024, .f32⟩ : BufTy).Contents (Elt F)),
    StableHlo.binary main_v60 main_v62 main_v63 (addf : (⟨S1x1024, .f32⟩ : BufTy).Contents (Elt F) → (⟨S1x1024, .f32⟩ : BufTy).Contents (Elt F) → (⟨S1x1024, .f32⟩ : BufTy).Contents (Elt F)),
    StableHlo.unary main_v63 main_v64 (Host.tanh : (⟨S1x1024, .f32⟩ : BufTy).Contents (Elt F) → (⟨S1x1024, .f32⟩ : BufTy).Contents (Elt F)),
    StableHlo.nullary main_cst_7 (constant S_ .f32 0x3F800000#32),
    StableHlo.unary main_cst_7 main_v65 (broadcastInDim S1x1024 ![] bcast_S_S1x1024 : (⟨S_, .f32⟩ : BufTy).Contents (Elt F) → (⟨S1x1024, .f32⟩ : BufTy).Contents (Elt F)),
    StableHlo.binary main_v65 main_v59 main_v66 (subf : (⟨S1x1024, .f32⟩ : BufTy).Contents (Elt F) → (⟨S1x1024, .f32⟩ : BufTy).Contents (Elt F) → (⟨S1x1024, .f32⟩ : BufTy).Contents (Elt F)),
    StableHlo.binary main_v66 main_v64 main_v67 (mulf : (⟨S1x1024, .f32⟩ : BufTy).Contents (Elt F) → (⟨S1x1024, .f32⟩ : BufTy).Contents (Elt F) → (⟨S1x1024, .f32⟩ : BufTy).Contents (Elt F)),
    StableHlo.binary main_v59 main_v8 main_v68 (mulf : (⟨S1x1024, .f32⟩ : BufTy).Contents (Elt F) → (⟨S1x1024, .f32⟩ : BufTy).Contents (Elt F) → (⟨S1x1024, .f32⟩ : BufTy).Contents (Elt F)),
    StableHlo.binary main_v67 main_v68 main_v69 (addf : (⟨S1x1024, .f32⟩ : BufTy).Contents (Elt F) → (⟨S1x1024, .f32⟩ : BufTy).Contents (Elt F) → (⟨S1x1024, .f32⟩ : BufTy).Contents (Elt F)),
    StableHlo.reshape main_arg13 main_v70 rfl shapeCasts_S50257_S1x50257 ]
end Lists

theorem kops_split : List.flatten [hostOps0 (F := Ideal), hostOps0_1, hostOps0_2] = kA1 (F := Ideal) ++ (kA2 ++ kA3) := rfl

set_option maxHeartbeats 16000000 in
/-- No operation of the reference's first stretch writes an argument; -/
theorem keepR1 (W : Valuation Cert.ReferenceIdeal.τ Cert.ReferenceIdeal.sig (Elt Ideal)) (b : Ref Cert.ReferenceIdeal.sig .tc)
    (hb : b ∈ ([Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13] : List (Ref Cert.ReferenceIdeal.sig .tc))) :
    StableHlo.after (Cert.ReferenceIdeal.Hand.opsA1 (F := Ideal)) W (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl
  all_goals not_written

set_option maxHeartbeats 16000000 in
/-- nor of its second; -/
theorem keepR2 (W : Valuation Cert.ReferenceIdeal.τ Cert.ReferenceIdeal.sig (Elt Ideal)) (b : Ref Cert.ReferenceIdeal.sig .tc)
    (hb : b ∈ ([Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13] : List (Ref Cert.ReferenceIdeal.sig .tc))) :
    StableHlo.after (Cert.ReferenceIdeal.Hand.opsA2 (F := Ideal)) W (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl
  all_goals not_written

set_option maxHeartbeats 16000000 in
/-- nor of the kernel program's first; -/
theorem keepK1 (W : Valuation τ sig (Elt Ideal)) (b : Ref sig .tc)
    (hb : b ∈ ([main_arg0, main_arg1, main_arg2, main_arg3, main_arg4, main_arg5, main_arg6, main_arg7, main_arg8, main_arg9, main_arg10, main_arg11, main_arg12, main_arg13] : List (Ref sig .tc))) :
    StableHlo.after (kA1 (F := Ideal)) W (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl
  all_goals not_written

set_option maxHeartbeats 16000000 in
/-- nor of its second. -/
theorem keepK2 (W : Valuation τ sig (Elt Ideal)) (b : Ref sig .tc)
    (hb : b ∈ ([main_arg0, main_arg1, main_arg2, main_arg3, main_arg4, main_arg5, main_arg6, main_arg7, main_arg8, main_arg9, main_arg10, main_arg11, main_arg12, main_arg13] : List (Ref sig .tc))) :
    StableHlo.after (kA2 (F := Ideal)) W (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl
  all_goals not_written

set_option maxHeartbeats 4000000 in
/-- The kernel program's second stretch does not write the old hidden row's 1×1024 form either. -/
theorem keepK2_v8 (W : Valuation τ sig (Elt Ideal)) : StableHlo.after (kA2 (F := Ideal)) W (Proc.devRef .tc main_v8) = W (Proc.devRef .tc main_v8) := by
  not_written
set_option maxHeartbeats 4000000 in
/-- The third stretches do not write the attention weights. -/
theorem keepR3_v25 (W : Valuation Cert.ReferenceIdeal.τ Cert.ReferenceIdeal.sig (Elt Ideal)) :
    StableHlo.after (Cert.ReferenceIdeal.Hand.opsA3 (F := Ideal)) W (Proc.devRef .tc Cert.ReferenceIdeal.main_v25) = W (Proc.devRef .tc Cert.ReferenceIdeal.main_v25) := by
  not_written
set_option maxHeartbeats 4000000 in
theorem keepK3_v25 (W : Valuation τ sig (Elt Ideal)) : StableHlo.after (kA3 (F := Ideal)) W (Proc.devRef .tc main_v25) = W (Proc.devRef .tc main_v25) := by
  not_written

/-- The old hidden row as a 1×1024 row. -/
def hrow (x : FVec Ideal Cert.ReferenceIdeal.S1x1x1024 .f32) : FVec Ideal Cert.ReferenceIdeal.S1x1024 .f32 :=
  shapeCast Cert.ReferenceIdeal.S1x1024 x Cert.ReferenceIdeal.Gen.shapeCasts_S1x1x1024_S1x1024

section First
variable (Wr : Valuation Cert.ReferenceIdeal.τ Cert.ReferenceIdeal.sig (Elt Ideal)) (Wk : Valuation τ sig (Elt Ideal))
  (a0 : Wr (Proc.devRef .tc Cert.ReferenceIdeal.main_arg0) = Wk (Proc.devRef .tc main_arg0)) (a1 : Wr (Proc.devRef .tc Cert.ReferenceIdeal.main_arg1) = Wk (Proc.devRef .tc main_arg1))
  (a3 : Wr (Proc.devRef .tc Cert.ReferenceIdeal.main_arg3) = Wk (Proc.devRef .tc main_arg3))

include a0 a3 in
/-- The embedding row as gathered (1×1×1024). -/
theorem first_embed3 : StableHlo.after (Cert.ReferenceIdeal.Hand.opsA1 (F := Ideal)) Wr (Proc.devRef .tc Cert.ReferenceIdeal.main_v7) = StableHlo.after (kA1 (F := Ideal)) Wk (Proc.devRef .tc main_v7) := by
  simp only [Cert.ReferenceIdeal.Hand.opsA1, kA1]
  after_results_simp
  simp only [a0, a3]
  rfl

include a0 a3 in
/-- The embedding row as a 1×1024 row. -/
theorem first_embed : StableHlo.after (Cert.ReferenceIdeal.Hand.opsA1 (F := Ideal)) Wr (Proc.devRef .tc Cert.ReferenceIdeal.main_v8) = StableHlo.after (kA1 (F := Ideal)) Wk (Proc.devRef .tc main_v9) := by
  simp only [Cert.ReferenceIdeal.Hand.opsA1, kA1]
  after_results_simp
  simp only [a0, a3]
  rfl

include a1 in
/-- The old hidden row as a 1×1024 row. -/
theorem first_hidden : StableHlo.after (Cert.ReferenceIdeal.Hand.opsA1 (F := Ideal)) Wr (Proc.devRef .tc Cert.ReferenceIdeal.main_v9) = StableHlo.after (kA1 (F := Ideal)) Wk (Proc.devRef .tc main_v8) := by
  simp only [Cert.ReferenceIdeal.Hand.opsA1, kA1]
  after_results_simp
  simp only [a1]
  rfl

/-- In the kernel program that row is the reshape of the old hidden state. -/
theorem first_hidden_k : StableHlo.after (kA1 (F := Ideal)) Wk (Proc.devRef .tc main_v8) = hrow (Wk (Proc.devRef .tc main_arg1)) := by
  simp only [kA1]
  after_results_simp
  rfl
end First

section Second
variable (Yr : Valuation Cert.ReferenceIdeal.τ Cert.ReferenceIdeal.sig (Elt Ideal)) (Yk : Valuation τ sig (Elt Ideal))
  (be : Yr (Proc.devRef .tc Cert.ReferenceIdeal.main_v8) = Yk (Proc.devRef .tc main_v9)) (bh : Yr (Proc.devRef .tc Cert.ReferenceIdeal.main_v9) = Yk (Proc.devRef .tc main_v8))
  (b7 : Yr (Proc.devRef .tc Cert.ReferenceIdeal.main_v7) = Yk (Proc.devRef .tc main_v7))
  (b2 : Yr (Proc.devRef .tc Cert.ReferenceIdeal.main_arg2) = Yk (Proc.devRef .tc main_arg2)) (b4 : Yr (Proc.devRef .tc Cert.ReferenceIdeal.main_arg4) = Yk (Proc.devRef .tc main_arg4))
  (b5 : Yr (Proc.devRef .tc Cert.ReferenceIdeal.main_arg5) = Yk (Proc.devRef .tc main_arg5))

set_option maxHeartbeats 8000000 in
include be bh b4 b5 in
/-- The attention weights. -/
theorem second_weights : StableHlo.after (Cert.ReferenceIdeal.Hand.opsA2 (F := Ideal)) Yr (Proc.devRef .tc Cert.ReferenceIdeal.main_v25) = StableHlo.after (kA2 (F := Ideal)) Yk (Proc.devRef .tc main_v25) := by
  simp only [Cert.ReferenceIdeal.Hand.opsA2, kA2]
  after_results_simp
  rw [be, bh]
  simp only [b4, b5]
  rfl

set_option maxHeartbeats 8000000 in
include be bh b2 b4 b5 in
/-- The weighted context. -/
theorem second_context : StableHlo.after (Cert.ReferenceIdeal.Hand.opsA2 (F := Ideal)) Yr (Proc.devRef .tc Cert.ReferenceIdeal.main_v26) = StableHlo.after (kA2 (F := Ideal)) Yk (Proc.devRef .tc main_v26) := by
  simp only [Cert.ReferenceIdeal.Hand.opsA2, kA2]
  after_results_simp
  rw [be, bh]
  simp only [b2, b4, b5]
  rfl

include b7 in
/-- The embedding row again as a 1×1024 row. -/
theorem second_embed : StableHlo.after (Cert.ReferenceIdeal.Hand.opsA2 (F := Ideal)) Yr (Proc.devRef .tc Cert.ReferenceIdeal.main_v27) = StableHlo.after (kA2 (F := Ideal)) Yk (Proc.devRef .tc main_v27) := by
  simp only [Cert.ReferenceIdeal.Hand.opsA2, kA2]
  after_results_simp
  simp only [b7]
  rfl
end Second

section Third
variable (Zr : Valuation Cert.ReferenceIdeal.τ Cert.ReferenceIdeal.sig (Elt Ideal)) (Zk : Valuation τ sig (Elt Ideal))
  (ce : Zr (Proc.devRef .tc Cert.ReferenceIdeal.main_v27) = Zk (Proc.devRef .tc main_v27)) (cc : Zr (Proc.devRef .tc Cert.ReferenceIdeal.main_v26) = Zk (Proc.devRef .tc main_v26))
  (ch : Zk (Proc.devRef .tc main_v8) = hrow (Zr (Proc.devRef .tc Cert.ReferenceIdeal.main_arg1)))
  (c6 : Zr (Proc.devRef .tc Cert.ReferenceIdeal.main_arg6) = Zk (Proc.devRef .tc main_arg6)) (c7 : Zr (Proc.devRef .tc Cert.ReferenceIdeal.main_arg7) = Zk (Proc.devRef .tc main_arg7)) (c8 : Zr (Proc.devRef .tc Cert.ReferenceIdeal.main_arg8) = Zk (Proc.devRef .tc main_arg8)) (c9 : Zr (Proc.devRef .tc Cert.ReferenceIdeal.main_arg9) = Zk (Proc.devRef .tc main_arg9)) (c10 : Zr (Proc.devRef .tc Cert.ReferenceIdeal.main_arg10) = Zk (Proc.devRef .tc main_arg10)) (c11 : Zr (Proc.devRef .tc Cert.ReferenceIdeal.main_arg11) = Zk (Proc.devRef .tc main_arg11))

set_option maxHeartbeats 16000000 in
include ce cc ch c6 c7 c8 c9 c10 c11 in
/-- The new hidden row. -/
theorem third_hidden : StableHlo.after (Cert.ReferenceIdeal.Hand.opsA3 (F := Ideal)) Zr (Proc.devRef .tc Cert.ReferenceIdeal.main_v71) = StableHlo.after (kA3 (F := Ideal)) Zk (Proc.devRef .tc main_v69) := by
  simp only [Cert.ReferenceIdeal.Hand.opsA3, kA3]
  after_results_simp
  rw [ce, cc]
  simp only [ofBuf_toBuf, strip_k32, strip_k33, strip_r32, strip_r33]
  simp only [ch, c6, c7, c8, c9, c10, c11]
  rfl
end Third

section Whole
variable (Wr : Valuation Cert.ReferenceIdeal.τ Cert.ReferenceIdeal.sig (Elt Ideal)) (Wk : Valuation τ sig (Elt Ideal))
    (h0 : Wr (Proc.devRef .tc Cert.ReferenceIdeal.main_arg0) = Wk (Proc.devRef .tc main_arg0))
    (h1 : Wr (Proc.devRef .tc Cert.ReferenceIdeal.main_arg1) = Wk (Proc.devRef .tc main_arg1))
    (h2 : Wr (Proc.devRef .tc Cert.ReferenceIdeal.main_arg2) = Wk (Proc.devRef .tc main_arg2))
    (h3 : Wr (Proc.devRef .tc Cert.ReferenceIdeal.main_arg3) = Wk (Proc.devRef .tc main_arg3))
    (h4 : Wr (Proc.devRef .tc Cert.ReferenceIdeal.main_arg4) = Wk (Proc.devRef .tc main_arg4))
    (h5 : Wr (Proc.devRef .tc Cert.ReferenceIdeal.main_arg5) = Wk (Proc.devRef .tc main_arg5))
    (h6 : Wr (Proc.devRef .tc Cert.ReferenceIdeal.main_arg6) = Wk (Proc.devRef .tc main_arg6))
    (h7 : Wr (Proc.devRef .tc Cert.ReferenceIdeal.main_arg7) = Wk (Proc.devRef .tc main_arg7))
    (h8 : Wr (Proc.devRef .tc Cert.ReferenceIdeal.main_arg8) = Wk (Proc.devRef .tc main_arg8))
    (h9 : Wr (Proc.devRef .tc Cert.ReferenceIdeal.main_arg9) = Wk (Proc.devRef .tc main_arg9))
    (h10 : Wr (Proc.devRef .tc Cert.ReferenceIdeal.main_arg10) = Wk (Proc.devRef .tc main_arg10))
    (h11 : Wr (Proc.devRef .tc Cert.ReferenceIdeal.main_arg11) = Wk (Proc.devRef .tc main_arg11))

/-! An argument after the first stretch, and after the second, in both programs. -/

include h2 in
theorem pass1_2 : StableHlo.after (Cert.ReferenceIdeal.Hand.opsA1 (F := Ideal)) Wr (Proc.devRef .tc Cert.ReferenceIdeal.main_arg2) = StableHlo.after (kA1 (F := Ideal)) Wk (Proc.devRef .tc main_arg2) :=
  (keepR1 _ Cert.ReferenceIdeal.main_arg2 (by decide)).trans (h2.trans (keepK1 _ main_arg2 (by decide)).symm)
include h2 in
theorem pass2_2 : StableHlo.after (Cert.ReferenceIdeal.Hand.opsA2 (F := Ideal)) (StableHlo.after (Cert.ReferenceIdeal.Hand.opsA1 (F := Ideal)) Wr) (Proc.devRef .tc Cert.ReferenceIdeal.main_arg2)
      = StableHlo.after (kA2 (F := Ideal)) (StableHlo.after (kA1 (F := Ideal)) Wk) (Proc.devRef .tc main_arg2) :=
  (keepR2 _ Cert.ReferenceIdeal.main_arg2 (by decide)).trans ((pass1_2 Wr Wk h2).trans (keepK2 _ main_arg2 (by decide)).symm)

include h4 in
theorem pass1_4 : StableHlo.after (Cert.ReferenceIdeal.Hand.opsA1 (F := Ideal)) Wr (Proc.devRef .tc Cert.ReferenceIdeal.main_arg4) = StableHlo.after (kA1 (F := Ideal)) Wk (Proc.devRef .tc main_arg4) :=
  (keepR1 _ Cert.ReferenceIdeal.main_arg4 (by decide)).trans (h4.trans (keepK1 _ main_arg4 (by decide)).symm)
include h4 in
theorem pass2_4 : StableHlo.after (Cert.ReferenceIdeal.Hand.opsA2 (F := Ideal)) (StableHlo.after (Cert.ReferenceIdeal.Hand.opsA1 (F := Ideal)) Wr) (Proc.devRef .tc Cert.ReferenceIdeal.main_arg4)
      = StableHlo.after (kA2 (F := Ideal)) (StableHlo.after (kA1 (F := Ideal)) Wk) (Proc.devRef .tc main_arg4) :=
  (keepR2 _ Cert.ReferenceIdeal.main_arg4 (by decide)).trans ((pass1_4 Wr Wk h4).trans (keepK2 _ main_arg4 (by decide)).symm)

include h5 in
theorem pass1_5 : StableHlo.after (Cert.ReferenceIdeal.Hand.opsA1 (F := Ideal)) Wr (Proc.devRef .tc Cert.ReferenceIdeal.main_arg5) = StableHlo.after (kA1 (F := Ideal)) Wk (Proc.devRef .tc main_arg5) :=
  (keepR1 _ Cert.ReferenceIdeal.main_arg5 (by decide)).trans (h5.trans (keepK1 _ main_arg5 (by decide)).symm)
include h5 in
theorem pass2_5 : StableHlo.after (Cert.ReferenceIdeal.Hand.opsA2 (F := Ideal)) (StableHlo.after (Cert.ReferenceIdeal.Hand.opsA1 (F := Ideal)) Wr) (Proc.devRef .tc Cert.ReferenceIdeal.main_arg5)
      = StableHlo.after (kA2 (F := Ideal)) (StableHlo.after (kA1 (F := Ideal)) Wk) (Proc.devRef .tc main_arg5) :=
  (keepR2 _ Cert.ReferenceIdeal.main_arg5 (by decide)).trans ((pass1_5 Wr Wk h5).trans (keepK2 _ main_arg5 (by decide)).symm)

include h6 in
theorem pass1_6 : StableHlo.after (Cert.ReferenceIdeal.Hand.opsA1 (F := Ideal)) Wr (Proc.devRef .tc Cert.ReferenceIdeal.main_arg6) = StableHlo.after (kA1 (F := Ideal)) Wk (Proc.devRef .tc main_arg6) :=
  (keepR1 _ Cert.ReferenceIdeal.main_arg6 (by decide)).trans (h6.trans (keepK1 _ main_arg6 (by decide)).symm)
include h6 in
theorem pass2_6 : StableHlo.after (Cert.ReferenceIdeal.Hand.opsA2 (F := Ideal)) (StableHlo.after (Cert.ReferenceIdeal.Hand.opsA1 (F := Ideal)) Wr) (Proc.devRef .tc Cert.ReferenceIdeal.main_arg6)
      = StableHlo.after (kA2 (F := Ideal)) (StableHlo.after (kA1 (F := Ideal)) Wk) (Proc.devRef .tc main_arg6) :=
  (keepR2 _ Cert.ReferenceIdeal.main_arg6 (by decide)).trans ((pass1_6 Wr Wk h6).trans (keepK2 _ main_arg6 (by decide)).symm)

include h7 in
theorem pass1_7 : StableHlo.after (Cert.ReferenceIdeal.Hand.opsA1 (F := Ideal)) Wr (Proc.devRef .tc Cert.ReferenceIdeal.main_arg7) = StableHlo.after (kA1 (F := Ideal)) Wk (Proc.devRef .tc main_arg7) :=
  (keepR1 _ Cert.ReferenceIdeal.main_arg7 (by decide)).trans (h7.trans (keepK1 _ main_arg7 (by decide)).symm)
include h7 in
theorem pass2_7 : StableHlo.after (Cert.ReferenceIdeal.Hand.opsA2 (F := Ideal)) (StableHlo.after (Cert.ReferenceIdeal.Hand.opsA1 (F := Ideal)) Wr) (Proc.devRef .tc Cert.ReferenceIdeal.main_arg7)
      = StableHlo.after (kA2 (F := Ideal)) (StableHlo.after (kA1 (F := Ideal)) Wk) (Proc.devRef .tc main_arg7) :=
  (keepR2 _ Cert.ReferenceIdeal.main_arg7 (by decide)).trans ((pass1_7 Wr Wk h7).trans (keepK2 _ main_arg7 (by decide)).symm)

include h8 in
theorem pass1_8 : StableHlo.after (Cert.ReferenceIdeal.Hand.opsA1 (F := Ideal)) Wr (Proc.devRef .tc Cert.ReferenceIdeal.main_arg8) = StableHlo.after (kA1 (F := Ideal)) Wk (Proc.devRef .tc main_arg8) :=
  (keepR1 _ Cert.ReferenceIdeal.main_arg8 (by decide)).trans (h8.trans (keepK1 _ main_arg8 (by decide)).symm)
include h8 in
theorem pass2_8 : StableHlo.after (Cert.ReferenceIdeal.Hand.opsA2 (F := Ideal)) (StableHlo.after (Cert.ReferenceIdeal.Hand.opsA1 (F := Ideal)) Wr) (Proc.devRef .tc Cert.ReferenceIdeal.main_arg8)
      = StableHlo.after (kA2 (F := Ideal)) (StableHlo.after (kA1 (F := Ideal)) Wk) (Proc.devRef .tc main_arg8) :=
  (keepR2 _ Cert.ReferenceIdeal.main_arg8 (by decide)).trans ((pass1_8 Wr Wk h8).trans (keepK2 _ main_arg8 (by decide)).symm)

include h9 in
theorem pass1_9 : StableHlo.after (Cert.ReferenceIdeal.Hand.opsA1 (F := Ideal)) Wr (Proc.devRef .tc Cert.ReferenceIdeal.main_arg9) = StableHlo.after (kA1 (F := Ideal)) Wk (Proc.devRef .tc main_arg9) :=
  (keepR1 _ Cert.ReferenceIdeal.main_arg9 (by decide)).trans (h9.trans (keepK1 _ main_arg9 (by decide)).symm)
include h9 in
theorem pass2_9 : StableHlo.after (Cert.ReferenceIdeal.Hand.opsA2 (F := Ideal)) (StableHlo.after (Cert.ReferenceIdeal.Hand.opsA1 (F := Ideal)) Wr) (Proc.devRef .tc Cert.ReferenceIdeal.main_arg9)
      = StableHlo.after (kA2 (F := Ideal)) (StableHlo.after (kA1 (F := Ideal)) Wk) (Proc.devRef .tc main_arg9) :=
  (keepR2 _ Cert.ReferenceIdeal.main_arg9 (by decide)).trans ((pass1_9 Wr Wk h9).trans (keepK2 _ main_arg9 (by decide)).symm)

include h10 in
theorem pass1_10 : StableHlo.after (Cert.ReferenceIdeal.Hand.opsA1 (F := Ideal)) Wr (Proc.devRef .tc Cert.ReferenceIdeal.main_arg10) = StableHlo.after (kA1 (F := Ideal)) Wk (Proc.devRef .tc main_arg10) :=
  (keepR1 _ Cert.ReferenceIdeal.main_arg10 (by decide)).trans (h10.trans (keepK1 _ main_arg10 (by decide)).symm)
include h10 in
theorem pass2_10 : StableHlo.after (Cert.ReferenceIdeal.Hand.opsA2 (F := Ideal)) (StableHlo.after (Cert.ReferenceIdeal.Hand.opsA1 (F := Ideal)) Wr) (Proc.devRef .tc Cert.ReferenceIdeal.main_arg10)
      = StableHlo.after (kA2 (F := Ideal)) (StableHlo.after (kA1 (F := Ideal)) Wk) (Proc.devRef .tc main_arg10) :=
  (keepR2 _ Cert.ReferenceIdeal.main_arg10 (by decide)).trans ((pass1_10 Wr Wk h10).trans (keepK2 _ main_arg10 (by decide)).symm)

include h11 in
theorem pass1_11 : StableHlo.after (Cert.ReferenceIdeal.Hand.opsA1 (F := Ideal)) Wr (Proc.devRef .tc Cert.ReferenceIdeal.main_arg11) = StableHlo.after (kA1 (F := Ideal)) Wk (Proc.devRef .tc main_arg11) :=
  (keepR1 _ Cert.ReferenceIdeal.main_arg11 (by decide)).trans (h11.trans (keepK1 _ main_arg11 (by decide)).symm)
include h11 in
theorem pass2_11 : StableHlo.after (Cert.ReferenceIdeal.Hand.opsA2 (F := Ideal)) (StableHlo.after (Cert.ReferenceIdeal.Hand.opsA1 (F := Ideal)) Wr) (Proc.devRef .tc Cert.ReferenceIdeal.main_arg11)
      = StableHlo.after (kA2 (F := Ideal)) (StableHlo.after (kA1 (F := Ideal)) Wk) (Proc.devRef .tc main_arg11) :=
  (keepR2 _ Cert.ReferenceIdeal.main_arg11 (by decide)).trans ((pass1_11 Wr Wk h11).trans (keepK2 _ main_arg11 (by decide)).symm)

include h0 h1 h3 h4 h5 in
/-- From valuations that agree on the arguments it reads, the reference's attention weights are the kernel program's. -/
theorem prefix_weights :
    StableHlo.after (Cert.ReferenceIdeal.Hand.opsA (F := Ideal)) Wr (Proc.devRef .tc Cert.ReferenceIdeal.main_v25)
      = StableHlo.after (List.flatten [hostOps0 (F := Ideal), hostOps0_1, hostOps0_2]) Wk (Proc.devRef .tc main_v25) := by
  rw [Cert.ReferenceIdeal.Hand.opsA_split, kops_split, StableHlo.after_append, StableHlo.after_append, StableHlo.after_append,
    StableHlo.after_append, keepR3_v25, keepK3_v25]
  exact second_weights _ _ (first_embed Wr Wk h0 h3) (first_hidden Wr Wk h1)
    (pass1_4 Wr Wk h4) (pass1_5 Wr Wk h5)

include h0 h1 h2 h3 h4 h5 h6 h7 h8 h9 h10 h11 in
/-- And the reference's new hidden row is the kernel program's. -/
theorem prefix_hidden :
    StableHlo.after (Cert.ReferenceIdeal.Hand.opsA (F := Ideal)) Wr (Proc.devRef .tc Cert.ReferenceIdeal.main_v71)
      = StableHlo.after (List.flatten [hostOps0 (F := Ideal), hostOps0_1, hostOps0_2]) Wk (Proc.devRef .tc main_v69) := by
  rw [Cert.ReferenceIdeal.Hand.opsA_split, kops_split, StableHlo.after_append, StableHlo.after_append, StableHlo.after_append,
    StableHlo.after_append]
  refine third_hidden _ _ ?_ ?_ ?_ (pass2_6 Wr Wk h6) (pass2_7 Wr Wk h7)
    (pass2_8 Wr Wk h8) (pass2_9 Wr Wk h9)
    (pass2_10 Wr Wk h10) (pass2_11 Wr Wk h11)
  · exact second_embed _ _ (first_embed3 Wr Wk h0 h3)
  · exact second_context _ _ (first_embed Wr Wk h0 h3) (first_hidden Wr Wk h1)
      (pass1_2 Wr Wk h2) (pass1_4 Wr Wk h4)
      (pass1_5 Wr Wk h5)
  · refine (keepK2_v8 _).trans ((first_hidden_k Wk).trans (congrArg hrow ?_))
    exact h1.symm.trans ((keepR2 _ Cert.ReferenceIdeal.main_arg1 (by decide)).trans (keepR1 _ Cert.ReferenceIdeal.main_arg1 (by decide))).symm
end Whole

set_option maxHeartbeats 4000000 in
/-- The bias row the region finds is the bias vector laid out as a 1×50257 row. -/
theorem bias_eq (m : (ℓ : Loc nD τ sig) → Buf (Elt Ideal) ℓ) (c : Dev nD) :
    V m c main_v70 = shapeCast S1x50257 (m ((c.tc : Thread nD τ).loc main_arg13)) shapeCasts_S50257_S1x50257 := by
  dsimp only [V, V0]
  simp only [hostOps0, hostOps0_1, hostOps0_2, List.flatten_cons, List.flatten_nil, List.append_nil, List.cons_append, List.nil_append]
  rfl

/-! ## The log-softmax, and the lines after the projection in each program -/

/-- The largest entry of a row (the fold starts from −∞). -/
def rowMax (x : FVec Ideal S1x50257 .f32) : FVec Ideal S1 .f32 :=
  maximumf (broadcastInDim S1 ![] bcast_S_S1 (constant S_ .f32 0xFF800000#32 : FVec Ideal S_ .f32))
    (Host.reduce FloatOps.maximumf x (constant S_ .f32 0xFF800000#32 : FVec Ideal S_ .f32) reducesTo_S1x50257_S1_d1 h_S_)

/-- The row less its largest entry. -/
def centred (x : FVec Ideal S1x50257 .f32) : FVec Ideal S1x50257 .f32 :=
  subf x (broadcastInDim S1x50257 ![0, 1] bcast_S1x1_S1x50257_0_1 (broadcastInDim S1x1 ![0] bcast_S1_S1x1_0 (rowMax x)))

/-- The log-softmax of a row as both programs' last host function computes it: the centred row less the logarithm
    of the sum of its exponentials. -/
def lsm (x : FVec Ideal S1x50257 .f32) : FVec Ideal S1x50257 .f32 :=
  subf (centred x) (broadcastInDim S1x50257 ![0, 1] bcast_S1x1_S1x50257_0_1 (Host.log (broadcastInDim S1x1 ![0] bcast_S1_S1x1_0
    (Host.reduceAdd (Host.exp (centred x)) (constant S_ .f32 0x00000000#32 : FVec Ideal S_ .f32) reducesTo_S1x50257_S1_d1 h_S_))))

set_option maxHeartbeats 4000000 in
/-- The kernel program's lines after the region, read at the first result: the log-softmax of the region's result array. -/
theorem tail_logprobs (X : Valuation τ sig (Elt Ideal)) :
    StableHlo.after (List.flatten [hostOps1, hostOps1_1]) X (Proc.devRef .tc main_v72) = lsm (X (Proc.devRef .tc main_v71)) := by
  simp only [hostOps1, hostOps1_1, List.flatten_cons, List.flatten_nil, List.append_nil, List.cons_append, List.nil_append]
  after_results_simp
  simp only [ofBuf_toBuf, strip_k71, strip_k72]
  rfl

set_option maxHeartbeats 4000000 in
/-- Read at the second result: the hidden row as a 1×1×1024 array. -/
theorem tail_hidden (X : Valuation τ sig (Elt Ideal)) :
    StableHlo.after (List.flatten [hostOps1, hostOps1_1]) X (Proc.devRef .tc main_v73)
      = broadcastInDim S1x1x1024 ![1, 2] bcast_S1x1024_S1x1x1024_1_2 (X (Proc.devRef .tc main_v69)) := by
  simp only [hostOps1, hostOps1_1, List.flatten_cons, List.flatten_nil, List.append_nil, List.cons_append, List.nil_append]
  after_results

set_option maxHeartbeats 4000000 in
/-- Read at the third result: no later line writes the attention weights. -/
theorem tail_weights (X : Valuation τ sig (Elt Ideal)) :
    StableHlo.after (List.flatten [hostOps1, hostOps1_1]) X (Proc.devRef .tc main_v25) = X (Proc.devRef .tc main_v25) := by
  simp only [hostOps1, hostOps1_1, List.flatten_cons, List.flatten_nil, List.append_nil, List.cons_append, List.nil_append]
  after_results

/-- The reference's logits row of a hidden row, an output matrix and a bias vector: its `dot_general` with the
    transposed matrix plus the bias broadcast to a row. -/
def refLogits (h : FVec Ideal Cert.ReferenceIdeal.S1x1024 .f32) (W : FVec Ideal Cert.ReferenceIdeal.S50257x1024 .f32) (b : FVec Ideal Cert.ReferenceIdeal.S50257 .f32) :
    FVec Ideal Cert.ReferenceIdeal.S1x50257 .f32 :=
  addf (Host.dotGeneral Cert.ReferenceIdeal.dot_S1x1024_S1024x50257_S1x50257_1_0_0_1_n_n none h
        (transpose Cert.ReferenceIdeal.S1024x50257 [1, 0] W Cert.ReferenceIdeal.Gen.transposes_S50257x1024_S1024x50257_1_0))
      (broadcastInDim Cert.ReferenceIdeal.S1x50257 ![1] Cert.ReferenceIdeal.Gen.bcast_S50257_S1x50257_1 b)

set_option maxHeartbeats 4000000 in
/-- The reference's last 20 operations, read at its first result: the log-softmax of its product with the transposed
    matrix plus the broadcast bias. -/
theorem rtail_logprobs (Y : Valuation Cert.ReferenceIdeal.τ Cert.ReferenceIdeal.sig (Elt Ideal)) :
    StableHlo.after (Cert.ReferenceIdeal.Hand.opsB (F := Ideal)) Y (Proc.devRef .tc Cert.ReferenceIdeal.main_v76)
      = lsm (refLogits (Y (Proc.devRef .tc Cert.ReferenceIdeal.main_v71)) (Y (Proc.devRef .tc Cert.ReferenceIdeal.main_arg12)) (Y (Proc.devRef .tc Cert.ReferenceIdeal.main_arg13))) := by
  simp only [Cert.ReferenceIdeal.Hand.opsB]
  after_results_simp
  simp only [ofBuf_toBuf, strip_r75, strip_r76]
  rfl

set_option maxHeartbeats 4000000 in
theorem rtail_hidden (Y : Valuation Cert.ReferenceIdeal.τ Cert.ReferenceIdeal.sig (Elt Ideal)) :
    StableHlo.after (Cert.ReferenceIdeal.Hand.opsB (F := Ideal)) Y (Proc.devRef .tc Cert.ReferenceIdeal.main_v77)
      = broadcastInDim S1x1x1024 ![1, 2] bcast_S1x1024_S1x1x1024_1_2 (Y (Proc.devRef .tc Cert.ReferenceIdeal.main_v71)) := by
  simp only [Cert.ReferenceIdeal.Hand.opsB]
  after_results_simp

set_option maxHeartbeats 4000000 in
theorem rtail_weights (Y : Valuation Cert.ReferenceIdeal.τ Cert.ReferenceIdeal.sig (Elt Ideal)) :
    StableHlo.after (Cert.ReferenceIdeal.Hand.opsB (F := Ideal)) Y (Proc.devRef .tc Cert.ReferenceIdeal.main_v25) = Y (Proc.devRef .tc Cert.ReferenceIdeal.main_v25) := by
  simp only [Cert.ReferenceIdeal.Hand.opsB]
  after_results_simp

/-! ## The logits row -/

/-- The reference's printed dimension numbers are the plain ones: 1×1024 by 1024×50257. -/
theorem rdot_eq : Cert.ReferenceIdeal.dot_S1x1024_S1024x50257_S1x50257_1_0_0_1_n_n = DotDims.plain 1 1024 50257 := rfl

/-- The kernel's logits row is the reference's: entry by entry the same sum and the same bias entry. -/
theorem logits_eq (h : FVec Ideal S1x1024 .f32) (W : FVec Ideal S50257x1024 .f32) (b : FVec Ideal S50257 .f32) :
    logits h W (shapeCast S1x50257 b shapeCasts_S50257_S1x50257) = refLogits h W b := by
  funext i
  have hi0 : (i 0).val = 0 := by have h1 : (i 0).val < 1 := (i 0).isLt; omega
  have hi : i = ix2 (⟨0, Nat.one_pos⟩ : Fin 1) (⟨(i 1).val, (i 1).isLt⟩ : Fin 50257) := by
    funext a; apply Fin.ext
    match a with
    | ⟨0, _⟩ => exact hi0
    | ⟨1, _⟩ => rfl
  unfold logits refLogits
  rw [addf_apply]
  simp only [Host.dotGeneral]
  rw [rdot_eq, PlainDot.dotGeneral_apply]
  refine congrArg₂ (· + ·) (Finset.sum_congr rfl fun k _ => congrArg₂ (· * ·) ?_ ?_) ?_
  · refine congrArg h (funext fun a => Fin.ext ?_)
    match a with
    | ⟨0, _⟩ => show 0 = (i 0).val; omega
    | ⟨1, _⟩ => rfl
  · refine (transpose_apply [1, 0] W Cert.ReferenceIdeal.Gen.transposes_S50257x1024_S1024x50257_1_0 _
      (ix2 (⟨(i 1).val, (i 1).isLt⟩ : Fin 50257) k) (fun b => by
        match b with
        | ⟨0, _⟩ => rfl
        | ⟨1, _⟩ => rfl)).symm
  · refine (congrArg (shapeCast S1x50257 b shapeCasts_S50257_S1x50257) hi).trans
      ((shapeCast_a_1a_apply (a := 50257) b shapeCasts_S50257_S1x50257 (⟨0, Nat.one_pos⟩ : Fin 1) (⟨(i 1).val, (i 1).isLt⟩ : Fin 50257)).trans ?_)
    refine (broadcastInDim_apply _ Cert.ReferenceIdeal.Gen.bcast_S50257_S1x50257_1 b i (ix1 (⟨(i 1).val, (i 1).isLt⟩ : Fin 50257)) (fun a => by
      match a with
      | ⟨0, _⟩ => show (i 1).val = if (50257 : Nat) = 1 then 0 else (i 1).val; rw [if_neg (by decide)])).symm

/-! ## The three results of each program -/

variable (m : (ℓ : Loc nD τ sig) → Buf (Elt Ideal) ℓ) (c : Dev nD)

/-- The region's exit contents: the pipeline's arrays as the run leaves them, every other buffer as the region found it. -/
abbrev exitV : Valuation τ sig (Elt Ideal) :=
  Pipeline.withArrays spec0 c (V0 m c) (fun w => (vdat m c).arrAt w cfg0.N)

/-- The buffers' contents after the whole kernel program. -/
abbrev endV (b : Ref sig .tc) : Buf (Elt Ideal) ((c.tc : Thread nD τ).loc b) :=
  Pipeline.afterTail₀ cfgs (fun _ => vdat m) 0 (V0 m) [hostOps1, hostOps1_1] c b

/-- The kernel program's first result: the log-softmax of the logits row. -/
theorem out_logprobs : endV m c main_v72 = lsm (logitsArr m c) :=
  (tail_logprobs (exitV m c)).trans
    (congrArg lsm ((Pipeline.withArrays_arr spec0 launch0.win.arr_inj c _ _ 3).trans (final3 m c)))

/-- Its second: the hidden row the region found (an input of the region, unchanged at its exit) as a 1×1×1024 array. -/
theorem out_hidden : endV m c main_v73 = broadcastInDim S1x1x1024 ![1, 2] bcast_S1x1024_S1x1x1024_1_2 (V m c main_v69) :=
  (tail_hidden (exitV m c)).trans (congrArg (broadcastInDim S1x1x1024 ![1, 2] bcast_S1x1024_S1x1x1024_1_2)
    ((Pipeline.withArrays_arr spec0 launch0.win.arr_inj c _ _ 0).trans (((vdat m c).arrAt_in 0 rfl _).trans (A_eq m c 0))))

/-- Its third: the attention weights the host lines computed. -/
theorem out_weights : endV m c main_v25 = V m c main_v25 :=
  (tail_weights (exitV m c)).trans
    (Pipeline.withArrays_of_ne spec0 c (V0 m c) _ main_v25 (by exact (by decide : ∀ w, Pipeline.arrRef spec0 w ≠ main_v25)))

variable (m' : (ℓ : Loc Cert.ReferenceIdeal.nD Cert.ReferenceIdeal.τ Cert.ReferenceIdeal.sig) → Buf (Elt Ideal) ℓ)
  (hagree : m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)
    ∧ m' ((c.tc : Thread Cert.ReferenceIdeal.nD Cert.ReferenceIdeal.τ).loc Cert.ReferenceIdeal.main_arg7) = m ((c.tc : Thread nD τ).loc main_arg7)
    ∧ m' ((c.tc : Thread Cert.ReferenceIdeal.nD Cert.ReferenceIdeal.τ).loc Cert.ReferenceIdeal.main_arg8) = m ((c.tc : Thread nD τ).loc main_arg8)
    ∧ m' ((c.tc : Thread Cert.ReferenceIdeal.nD Cert.ReferenceIdeal.τ).loc Cert.ReferenceIdeal.main_arg9) = m ((c.tc : Thread nD τ).loc main_arg9)
    ∧ m' ((c.tc : Thread Cert.ReferenceIdeal.nD Cert.ReferenceIdeal.τ).loc Cert.ReferenceIdeal.main_arg10) = m ((c.tc : Thread nD τ).loc main_arg10)
    ∧ m' ((c.tc : Thread Cert.ReferenceIdeal.nD Cert.ReferenceIdeal.τ).loc Cert.ReferenceIdeal.main_arg11) = m ((c.tc : Thread nD τ).loc main_arg11)
    ∧ m' ((c.tc : Thread Cert.ReferenceIdeal.nD Cert.ReferenceIdeal.τ).loc Cert.ReferenceIdeal.main_arg12) = m ((c.tc : Thread nD τ).loc main_arg12)
    ∧ m' ((c.tc : Thread Cert.ReferenceIdeal.nD Cert.ReferenceIdeal.τ).loc Cert.ReferenceIdeal.main_arg13) = m ((c.tc : Thread nD τ).loc main_arg13))

set_option maxHeartbeats 4000000 in
include hagree in
/-- The reference's first result, from a memory that agrees with the kernel's on the arguments. -/
theorem ref_logprobs : StableHlo.after (Cert.ReferenceIdeal.Hand.ops (F := Ideal)) (launchContents m' c) (Proc.devRef .tc Cert.ReferenceIdeal.main_v76) = endV m c main_v72 := by
  obtain ⟨h0, h1, h2, h3, h4, h5, h6, h7, h8, h9, h10, h11, h12, h13⟩ := hagree
  have hh : StableHlo.after (Cert.ReferenceIdeal.Hand.opsA (F := Ideal)) (launchContents m' c) (Proc.devRef .tc Cert.ReferenceIdeal.main_v71) = V m c main_v69 :=
    prefix_hidden (launchContents m' c) (fun b => m (c, b)) h0 h1 h2 h3 h4 h5 h6 h7 h8 h9 h10 h11
  have e12 : StableHlo.after (Cert.ReferenceIdeal.Hand.opsA (F := Ideal)) (launchContents m' c) (Proc.devRef .tc Cert.ReferenceIdeal.main_arg12) = m ((c.tc : Thread nD τ).loc main_arg12) :=
    (Cert.ReferenceIdeal.Hand.opsA_keep _ Cert.ReferenceIdeal.main_arg12 (by decide)).trans h12
  have e13 : StableHlo.after (Cert.ReferenceIdeal.Hand.opsA (F := Ideal)) (launchContents m' c) (Proc.devRef .tc Cert.ReferenceIdeal.main_arg13) = m ((c.tc : Thread nD τ).loc main_arg13) :=
    (Cert.ReferenceIdeal.Hand.opsA_keep _ Cert.ReferenceIdeal.main_arg13 (by decide)).trans h13
  rw [Cert.ReferenceIdeal.Hand.ops_split, StableHlo.after_append, rtail_logprobs, out_logprobs m c, hh, e12, e13]
  refine congrArg lsm ?_
  unfold logitsArr
  rw [bias_eq m c, V_main_arg12 m c]
  generalize V m c main_v69 = hv
  exact (logits_eq hv _ _).symm

set_option maxHeartbeats 4000000 in
include hagree in
theorem ref_hidden : StableHlo.after (Cert.ReferenceIdeal.Hand.ops (F := Ideal)) (launchContents m' c) (Proc.devRef .tc Cert.ReferenceIdeal.main_v77) = endV m c main_v73 := by
  obtain ⟨h0, h1, h2, h3, h4, h5, h6, h7, h8, h9, h10, h11, h12, h13⟩ := hagree
  have hh : StableHlo.after (Cert.ReferenceIdeal.Hand.opsA (F := Ideal)) (launchContents m' c) (Proc.devRef .tc Cert.ReferenceIdeal.main_v71) = V m c main_v69 :=
    prefix_hidden (launchContents m' c) (fun b => m (c, b)) h0 h1 h2 h3 h4 h5 h6 h7 h8 h9 h10 h11
  rw [Cert.ReferenceIdeal.Hand.ops_split, StableHlo.after_append, rtail_hidden, out_hidden m c, hh]

set_option maxHeartbeats 4000000 in
include hagree in
theorem ref_weights : StableHlo.after (Cert.ReferenceIdeal.Hand.ops (F := Ideal)) (launchContents m' c) (Proc.devRef .tc Cert.ReferenceIdeal.main_v25) = endV m c main_v25 := by
  obtain ⟨h0, h1, h2, h3, h4, h5, h6, h7, h8, h9, h10, h11, h12, h13⟩ := hagree
  have hw : StableHlo.after (Cert.ReferenceIdeal.Hand.opsA (F := Ideal)) (launchContents m' c) (Proc.devRef .tc Cert.ReferenceIdeal.main_v25) = V m c main_v25 :=
    prefix_weights (launchContents m' c) (fun b => m (c, b)) h0 h1 h3 h4 h5
  rw [Cert.ReferenceIdeal.Hand.ops_split, StableHlo.after_append, rtail_weights, out_weights m c, hw]

end Cert.Bridge

end
-- ==== Proof.lean ====
/-
  A single decoding step of an attention GRU: the vocabulary projection h·Woᵀ + bo as a tiled kernel over 15 blocks
  of 3584 vocabulary rows, against the plain matrix product.

  The claim's five parts.
  · The word-level kernel's frame and the idealized kernel's frame: the program runs to the end, faults nowhere and
    leaves its fourteen arguments as launched. Proved at any float instance with proof data that name nothing of what
    the body leaves in its buffers (the last block overhangs the arrays by 3503 rows, whose staging contents nothing
    names).
  · The reference's frame: its run, with the results dropped.
  · The idealization rewrote nothing: that part is `True`.
  · Over the extended reals the two programs end with equal results. The host computation of the attention weights
    and of the new hidden row is the same term in both. The kernel's result array is the logits row
    Σ_k h(0,k)·Wo(j,k) + bo(j): every entry inside the array is written by exactly the block that holds its row of Wo
    and depends on that row only, so the words past the arrays' ends never matter. The reference's product with the
    transposed matrix is the same sum, and both programs finish with the same log-softmax. No law of the extended
    reals is used beyond reading both sides at an index, so the precondition is never opened.
-/
import proofs.«117048_j14027363189411_2_alg».proof.Defs
import proofs.«117048_j14027363189411_2_alg».proof.Proof.Gen.Pre_finite_inputs
import proofs.«117048_j14027363189411_2_alg».proof.Proof.KFrame
import proofs.«117048_j14027363189411_2_alg».proof.Proof.KIFrame
import proofs.«117048_j14027363189411_2_alg».proof.Proof.Bridge

set_option maxRecDepth 16384

noncomputable section

namespace Cert.Proof

open Idealize.ShloMosaic Idealize.SL.Sem Idealize.ShloMosaic.TcCoe

theorem frame_k : Cert.frame_Kernel := fun m ρ _ => Cert.Kernel.Hand.frame_args m ρ

theorem frame_ki : Cert.frame_KernelIdeal := fun m ρ _ => Cert.KernelIdeal.Hand.frame_args m ρ

theorem frame_ri : Cert.frame_ReferenceIdeal := fun m ρ _ => Cert.ReferenceIdeal.Hand.run_args m ρ

theorem preserves : Cert.preserves_Kernel_KernelIdeal := trivial

/-- The idealized kernel's run with its three results named: the frame run's post read at the three result buffers
    (none is an array of the pipeline) and at the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v72) = Cert.Bridge.endV m c Cert.KernelIdeal.main_v72
      ∧ r.2.mem ((c.tc : Thread Cert.KernelIdeal.nD Cert.KernelIdeal.τ).loc Cert.KernelIdeal.main_v73) = Cert.Bridge.endV m c Cert.KernelIdeal.main_v73
      ∧ r.2.mem ((c.tc : Thread Cert.KernelIdeal.nD Cert.KernelIdeal.τ).loc Cert.KernelIdeal.main_v25) = Cert.Bridge.endV m c Cert.KernelIdeal.main_v25
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun _ h c => ⟨
      (h c).2 Cert.KernelIdeal.main_v72 (Pipeline.mem_restRefs_of Cert.KernelIdeal.main_v72 (by decide) (by decide)),
      (h c).2 Cert.KernelIdeal.main_v73 (Pipeline.mem_restRefs_of Cert.KernelIdeal.main_v73 (by decide) (by decide)),
      (h c).2 Cert.KernelIdeal.main_v25 (Pipeline.mem_restRefs_of Cert.KernelIdeal.main_v25 (by decide) (by decide)),
      ((h c).2 Cert.KernelIdeal.main_arg0 (Pipeline.mem_restRefs_of Cert.KernelIdeal.main_arg0 (by decide) (by decide))).trans (Cert.KernelIdeal.Gen.W_main_arg0 m (fun _ => Cert.KernelIdeal.Hand.vdat m) c),
      ((h c).2 Cert.KernelIdeal.main_arg1 (Pipeline.mem_restRefs_of Cert.KernelIdeal.main_arg1 (by decide) (by decide))).trans (Cert.KernelIdeal.Gen.W_main_arg1 m (fun _ => Cert.KernelIdeal.Hand.vdat m) c),
      ((h c).2 Cert.KernelIdeal.main_arg2 (Pipeline.mem_restRefs_of Cert.KernelIdeal.main_arg2 (by decide) (by decide))).trans (Cert.KernelIdeal.Gen.W_main_arg2 m (fun _ => Cert.KernelIdeal.Hand.vdat m) c),
      ((h c).2 Cert.KernelIdeal.main_arg3 (Pipeline.mem_restRefs_of Cert.KernelIdeal.main_arg3 (by decide) (by decide))).trans (Cert.KernelIdeal.Gen.W_main_arg3 m (fun _ => Cert.KernelIdeal.Hand.vdat m) c),
      ((h c).2 Cert.KernelIdeal.main_arg4 (Pipeline.mem_restRefs_of Cert.KernelIdeal.main_arg4 (by decide) (by decide))).trans (Cert.KernelIdeal.Gen.W_main_arg4 m (fun _ => Cert.KernelIdeal.Hand.vdat m) c),
      ((h c).2 Cert.KernelIdeal.main_arg5 (Pipeline.mem_restRefs_of Cert.KernelIdeal.main_arg5 (by decide) (by decide))).trans (Cert.KernelIdeal.Gen.W_main_arg5 m (fun _ => Cert.KernelIdeal.Hand.vdat m) c),
      ((h c).2 Cert.KernelIdeal.main_arg6 (Pipeline.mem_restRefs_of Cert.KernelIdeal.main_arg6 (by decide) (by decide))).trans (Cert.KernelIdeal.Gen.W_main_arg6 m (fun _ => Cert.KernelIdeal.Hand.vdat m) c),
      ((h c).2 Cert.KernelIdeal.main_arg7 (Pipeline.mem_restRefs_of Cert.KernelIdeal.main_arg7 (by decide) (by decide))).trans (Cert.KernelIdeal.Gen.W_main_arg7 m (fun _ => Cert.KernelIdeal.Hand.vdat m) c),
      ((h c).2 Cert.KernelIdeal.main_arg8 (Pipeline.mem_restRefs_of Cert.KernelIdeal.main_arg8 (by decide) (by decide))).trans (Cert.KernelIdeal.Gen.W_main_arg8 m (fun _ => Cert.KernelIdeal.Hand.vdat m) c),
      ((h c).2 Cert.KernelIdeal.main_arg9 (Pipeline.mem_restRefs_of Cert.KernelIdeal.main_arg9 (by decide) (by decide))).trans (Cert.KernelIdeal.Gen.W_main_arg9 m (fun _ => Cert.KernelIdeal.Hand.vdat m) c),
      ((h c).2 Cert.KernelIdeal.main_arg10 (Pipeline.mem_restRefs_of Cert.KernelIdeal.main_arg10 (by decide) (by decide))).trans (Cert.KernelIdeal.Gen.W_main_arg10 m (fun _ => Cert.KernelIdeal.Hand.vdat m) c),
      ((h c).2 Cert.KernelIdeal.main_arg11 (Pipeline.mem_restRefs_of Cert.KernelIdeal.main_arg11 (by decide) (by decide))).trans (Cert.KernelIdeal.Gen.W_main_arg11 m (fun _ => Cert.KernelIdeal.Hand.vdat m) c),
      ((h c).1 1).trans (((Cert.KernelIdeal.Hand.vdat m c).arrAt_in 1 rfl _).trans ((Cert.KernelIdeal.Hand.A_eq m c 1).trans (Cert.KernelIdeal.Gen.V_main_arg12 m c))),
      ((h c).2 Cert.KernelIdeal.main_arg13 (Pipeline.mem_restRefs_of Cert.KernelIdeal.main_arg13 (by decide) (by decide))).trans (Cert.KernelIdeal.Gen.W_main_arg13 m (fun _ => Cert.KernelIdeal.Hand.vdat m) c)⟩)
    (Cert.KernelIdeal.Hand.run_main m ρ)

theorem algebraic : Cert.algebraic_KernelIdeal_ReferenceIdeal := by
  intro m ρ m' ρ' _ hagree
  refine ⟨fun c => Cert.Bridge.endV m c Cert.KernelIdeal.main_v72, fun c => Cert.Bridge.endV m c Cert.KernelIdeal.main_v73,
    fun c => Cert.Bridge.endV m c Cert.KernelIdeal.main_v25, kernel_run m ρ, ?_⟩
  refine (θ_run Cert.ReferenceIdeal.defs _ _).mono (fun r h c => ?_) (Cert.ReferenceIdeal.Hand.run_raw (F := Ideal) m' ρ')
  exact ⟨(h c Cert.ReferenceIdeal.main_v76).trans (Cert.Bridge.ref_logprobs m c m' (hagree c)),
    (h c Cert.ReferenceIdeal.main_v77).trans (Cert.Bridge.ref_hidden m c m' (hagree c)),
    (h c Cert.ReferenceIdeal.main_v25).trans (Cert.Bridge.ref_weights m c m' (hagree c)),
    (h c Cert.ReferenceIdeal.main_arg0).trans (Cert.ReferenceIdeal.Hand.ops_keep _ Cert.ReferenceIdeal.main_arg0 (by decide)),
    (h c Cert.ReferenceIdeal.main_arg1).trans (Cert.ReferenceIdeal.Hand.ops_keep _ Cert.ReferenceIdeal.main_arg1 (by decide)),
    (h c Cert.ReferenceIdeal.main_arg2).trans (Cert.ReferenceIdeal.Hand.ops_keep _ Cert.ReferenceIdeal.main_arg2 (by decide)),
    (h c Cert.ReferenceIdeal.main_arg3).trans (Cert.ReferenceIdeal.Hand.ops_keep _ Cert.ReferenceIdeal.main_arg3 (by decide)),
    (h c Cert.ReferenceIdeal.main_arg4).trans (Cert.ReferenceIdeal.Hand.ops_keep _ Cert.ReferenceIdeal.main_arg4 (by decide)),
    (h c Cert.ReferenceIdeal.main_arg5).trans (Cert.ReferenceIdeal.Hand.ops_keep _ Cert.ReferenceIdeal.main_arg5 (by decide)),
    (h c Cert.ReferenceIdeal.main_arg6).trans (Cert.ReferenceIdeal.Hand.ops_keep _ Cert.ReferenceIdeal.main_arg6 (by decide)),
    (h c Cert.ReferenceIdeal.main_arg7).trans (Cert.ReferenceIdeal.Hand.ops_keep _ Cert.ReferenceIdeal.main_arg7 (by decide)),
    (h c Cert.ReferenceIdeal.main_arg8).trans (Cert.ReferenceIdeal.Hand.ops_keep _ Cert.ReferenceIdeal.main_arg8 (by decide)),
    (h c Cert.ReferenceIdeal.main_arg9).trans (Cert.ReferenceIdeal.Hand.ops_keep _ Cert.ReferenceIdeal.main_arg9 (by decide)),
    (h c Cert.ReferenceIdeal.main_arg10).trans (Cert.ReferenceIdeal.Hand.ops_keep _ Cert.ReferenceIdeal.main_arg10 (by decide)),
    (h c Cert.ReferenceIdeal.main_arg11).trans (Cert.ReferenceIdeal.Hand.ops_keep _ Cert.ReferenceIdeal.main_arg11 (by decide)),
    (h c Cert.ReferenceIdeal.main_arg12).trans (Cert.ReferenceIdeal.Hand.ops_keep _ Cert.ReferenceIdeal.main_arg12 (by decide)),
    (h c Cert.ReferenceIdeal.main_arg13).trans (Cert.ReferenceIdeal.Hand.ops_keep _ Cert.ReferenceIdeal.main_arg13 (by decide))⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
